-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048 : Shape := ⟨2, ![1, 2048]⟩
abbrev S64x2048 : Shape := ⟨2, ![64, 2048]⟩
abbrev S2048x6144 : Shape := ⟨2, ![2048, 6144]⟩
abbrev S2048x2048 : Shape := ⟨2, ![2048, 2048]⟩
abbrev S6144 : Shape := ⟨1, ![6144]⟩
abbrev S2048 : Shape := ⟨1, ![2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S2048x6144 : S_.BroadcastsInDim S2048x6144 (![] : Fin 0 → Fin S2048x6144.rank)
  reducesTo_S2048x6144_S_d0_1 : S2048x6144.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S6144 : S_.BroadcastsInDim S6144 (![] : Fin 0 → Fin S6144.rank)
  reducesTo_S6144_S_d0 : S6144.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x2048 .f32) (main_arg8 : FVec F S6144 .f32) (main_arg9 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S2048x6144 .f32) (main_arg5 : FVec F S2048x6144 .f32) (main_arg6 : FVec F S2048x2048 .f32) (main_arg7 : FVec F S2048x2048 .f32) (main_arg8 : FVec F S6144 .f32) (main_arg9 : FVec F S2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S2048x6144 .f32 := Host.absf main_arg4
  let main_cst_6 : FVec F S_ .f32 := constant S_ .f32 0x7F800000#32
  let main_v20 : FVec F S2048x6144 .f32 := broadcastInDim S2048x6144 ![] bcast_S_S2048x6144 main_cst_6
  let main_v21 : IVec S2048x6144 1 := cmpf .olt main_v19 main_v20
  let main_c_7 : IVec S_ 1 := constantI S_ 1 1#1
  let main_v22 : IVec S_ 1 := (fun x v => Host.reduce IntOp.andi x v reducesTo_S2048x6144_S_d0_1 h_S_) main_v21 main_c_7
  let main_v23 : IVec S_ 1 := andi main_v18 main_v22
  let main_v24 : FVec F S2048x6144 .f32 := Host.absf main_arg5
  let main_cst_8 : FVec F S_ .f32 := constant S_ .f32 0x7F800000#32
  let main_v25 : FVec F S2048x6144 .f32 := broadcastInDim S2048x6144 ![] bcast_S_S2048x6144 main_cst_8
  let main_v26 : IVec S2048x6144 1 := cmpf .olt main_v24 main_v25
  let main_c_9 : IVec S_ 1 := constantI S_ 1 1#1
  let main_v27 : IVec S_ 1 := (fun x v => Host.reduce IntOp.andi x v reducesTo_S2048x6144_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x2048 .f32) (main_arg1 : FVec F S64x2048 .f32) (main_arg2 : FVec F S1x2048 .f32) (main_arg3 : FVec F S1x2048 .f32) (main_arg4 : FVec F S2048x6144 .f32) (main_arg5 : FVec F S2048x6144 .f32) (main_arg6 : FVec F S2048x2048 .f32) (main_arg7 : FVec F S2048x2048 .f32) (main_arg8 : FVec F S6144 .f32) (main_arg9 : FVec F S2048 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_arg7 main_arg8 main_arg9 main_v13 main_v16
-- ==== Kernel.lean ====
abbrev S1x2048 : Shape := ⟨2, ![1, 2048]⟩
abbrev S64x2048 : Shape := ⟨2, ![64, 2048]⟩
abbrev S2048x6144 : Shape := ⟨2, ![2048, 6144]⟩
abbrev S2048x2048 : Shape := ⟨2, ![2048, 2048]⟩
abbrev S6144 : Shape := ⟨1, ![6144]⟩
abbrev S2048 : Shape := ⟨1, ![2048]⟩
abbrev S1x6144 : Shape := ⟨2, ![1, 6144]⟩
abbrev S64x256 : Shape := ⟨2, ![64, 256]⟩
abbrev S2048x256 : Shape := ⟨2, ![2048, 256]⟩
abbrev S1x256 : Shape := ⟨2, ![1, 256]⟩
abbrev S65x256 : Shape := ⟨2, ![65, 256]⟩
abbrev S256 : Shape := ⟨1, ![256]⟩

abbrev nBuf : Space → Nat
  | .hbm => 14
  | .vmem => 33
  | .smem => 0
  | _ => 0

abbrev bufTy : (tb : Table) → Fin (tcTables nBuf tb) → BufTy
  | .hbm, ⟨0, _⟩ => ⟨S1x2048, .f32⟩
  | .hbm, ⟨1, _⟩ => ⟨S64x2048, .f32⟩
  | .hbm, ⟨2, _⟩ => ⟨S1x2048, .f32⟩
  | .hbm, ⟨3, _⟩ => ⟨S1x2048, .f32⟩
  | .hbm, ⟨4, _⟩ => ⟨S2048x6144, .f32⟩
  | .hbm, ⟨5, _⟩ => ⟨S2048x6144, .f32⟩
  | .hbm, ⟨6, _⟩ => ⟨S2048x2048, .f32⟩
  | .hbm, ⟨7, _⟩ => ⟨S2048x2048, .f32⟩
  | .hbm, ⟨8, _⟩ => ⟨S6144, .f32⟩
  | .hbm, ⟨9, _⟩ => ⟨S2048, .f32⟩
  | .hbm, ⟨10, _⟩ => ⟨S1x6144, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S64x2048, .f32⟩
  | .local _ .vmem, ⟨3, _⟩ => ⟨S64x256, .f32⟩
  | .local _ .vmem, ⟨4, _⟩ => ⟨S64x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S6144_S1x6144 : S6144.ShapeCasts S1x6144
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  inb_S64x2048_S64x2048_0_0 : ∀ a, (![0, 0] : Fin 2 → Nat) a + S64x2048.size a ≤ S64x2048.size a
  h_S64x2048 : 0 < S64x2048.numel
  inb_S64x256_S64x256_0_0 : ∀ a, (![0, 0] : Fin 2 → Nat) a + S64x256.size a ≤ S64x256.size a
  h_S64x256 : 0 < S64x256.numel
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  concatenates_S1x256_S64x256_S65x256_d0 : Shape.Concatenates [S1x256, S64x256] S65x256 0
  reduces_S65x256_S256 : S65x256.Reduces [0] S256
  shapeCasts_S256_S1x256 : S256.ShapeCasts S1x256
  broadcasts_S1x256_S65x256 : S1x256.Broadcasts S65x256
  dot_S1x2048_S2048x256_S1x256_1_0_0_1_n_n_wf : DotDims.WF S1x2048 S2048x256 S1x256 [1] [0] [0] [1] [] []
  dot_S64x2048_S2048x256_S64x256_1_0_0_1_n_n_wf : DotDims.WF S64x2048 S2048x256 S64x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x2048.size a
  hwx0_3 : ∀ i : grid0.Coords, EltTy.bits .f32 = 32 ∨ (Rect.block (s := S64x2048) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x6144.size a
  hwx0_4 : ∀ i : grid0.Coords, EltTy.bits .f32 = 32 ∨ (Rect.block (s := S2048x6144) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x6144.size a
  hwx0_5 : ∀ i : grid0.Coords, EltTy.bits .f32 = 32 ∨ (Rect.block (s := S2048x6144) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x6144.size a
  hwx0_6 : ∀ i : grid0.Coords, EltTy.bits .f32 = 32 ∨ (Rect.block (s := S2048x6144) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x6144.size a
  hwx0_7 : ∀ i : grid0.Coords, EltTy.bits .f32 = 32 ∨ (Rect.block (s := S2048x6144) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x6144.size a
  hwx0_8 : ∀ i : grid0.Coords, EltTy.bits .f32 = 32 ∨ (Rect.block (s := S2048x6144) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x6144.size a
  hwx0_9 : ∀ i : grid0.Coords, EltTy.bits .f32 = 32 ∨ (Rect.block (s := S2048x6144) S2048x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .f32 = 32 ∨ (Rect.block (s := S2048x2048) S2048x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S2048x2048.size a
  hwx0_11 : ∀ i : grid0.Coords, EltTy.bits .f32 = 32 ∨ (Rect.block (s := S2048x2048) S2048x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x6144.size a
  hwx0_12 : ∀ i : grid0.Coords, EltTy.bits .f32 = 32 ∨ (Rect.block (s := S1x6144) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x6144.size a
  hwx0_13 : ∀ i : grid0.Coords, EltTy.bits .f32 = 32 ∨ (Rect.block (s := S1x6144) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x6144.size a
  hwx0_14 : ∀ i : grid0.Coords, EltTy.bits .f32 = 32 ∨ (Rect.block (s := S1x6144) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x2048.size a
  hwx0_15 : ∀ i : grid0.Coords, EltTy.bits .f32 = 32 ∨ (Rect.block (s := S1x2048) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x2048.size a
  hwx0_16 : ∀ i : grid0.Coords, EltTy.bits .f32 = 32 ∨ (Rect.block (s := S1x2048) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x2048.size a
  hwx0_17 : ∀ i : grid0.Coords, EltTy.bits .f32 = 32 ∨ (Rect.block (s := S1x2048) S1x256.size (cc0_transform_17 i) (hinb0_17 i)).WholeWords (EltTy.packing .f32)

variable [Facts₀]

def dot_S1x2048_S2048x256_S1x256_1_0_0_1_n_n : DotDims S1x2048 S2048x256 S1x256 where
  lhsContracting := [1]
  rhsContracting := [0]
  lhsNonContracting := [0]
  rhsNonContracting := [1]
  lhsBatch := []
  rhsBatch := []
  wf := dot_S1x2048_S2048x256_S1x256_1_0_0_1_n_n_wf
def dot_S64x2048_S2048x256_S64x256_1_0_0_1_n_n : DotDims S64x2048 S2048x256 S64x256 where
  lhsContracting := [1]
  rhsContracting := [0]
  lhsNonContracting := [0]
  rhsNonContracting := [1]
  lhsBatch := []
  rhsBatch := []
  wf := dot_S64x2048_S2048x256_S64x256_1_0_0_1_n_n_wf

abbrev win0_0 : Pipeline.Window sig grid0 :=
  Pipeline.Window.ofSpec (Memref.whole main_arg0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S2048x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v1) S1x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v2_0) S1x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v2_1) S1x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S1x2048 : Shape := ⟨2, ![1, 2048]⟩
abbrev S64x2048 : Shape := ⟨2, ![64, 2048]⟩
abbrev S2048x6144 : Shape := ⟨2, ![2048, 6144]⟩
abbrev S2048x2048 : Shape := ⟨2, ![2048, 2048]⟩
abbrev S6144 : Shape := ⟨1, ![6144]⟩
abbrev S2048 : Shape := ⟨1, ![2048]⟩
abbrev S1x6144 : Shape := ⟨2, ![1, 6144]⟩
abbrev S_ : Shape := ⟨0, ![]⟩
abbrev S65x2048 : Shape := ⟨2, ![65, 2048]⟩

abbrev nBuf : Space → Nat
  | .hbm => 63
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S64x2048, .f32⟩
  | .hbm, ⟨2, _⟩ => ⟨S1x2048, .f32⟩
  | .hbm, ⟨3, _⟩ => ⟨S1x2048, .f32⟩
  | .hbm, ⟨4, _⟩ => ⟨S2048x6144, .f32⟩
  | .hbm, ⟨5, _⟩ => ⟨S2048x6144, .f32⟩
  | .hbm, ⟨6, _⟩ => ⟨S2048x2048, .f32⟩
  | .hbm, ⟨7, _⟩ => ⟨S2048x2048, .f32⟩
  | .hbm, ⟨8, _⟩ => ⟨S6144, .f32⟩
  | .hbm, ⟨9, _⟩ => ⟨S2048, .f32⟩
  | .hbm, ⟨10, _⟩ => ⟨S1x6144, .f32⟩
  | .hbm, ⟨11, _⟩ => ⟨S1x6144, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S64x2048, .f32⟩
  | .hbm, ⟨39, _⟩ => ⟨S64x2048, .f32⟩
  | .hbm, ⟨40, _⟩ => ⟨S64x2048, .f32⟩
  | .hbm, ⟨41, _⟩ => ⟨S64x2048, .f32⟩
  | .hbm, ⟨42, _⟩ => ⟨S64x2048, .f32⟩
  | .hbm, ⟨43, _⟩ => ⟨S_, .f32⟩
  | .hbm, ⟨44, _⟩ => ⟨S64x2048, .f32⟩
  | .hbm, ⟨45, _⟩ => ⟨S64x2048, .f32⟩
  | .hbm, ⟨46, _⟩ => ⟨S_, .f32⟩
  | .hbm, ⟨47, _⟩ => ⟨S64x2048, .f32⟩
  | .hbm, ⟨48, _⟩ => ⟨S64x2048, .f32⟩
  | .hbm, ⟨49, _⟩ => ⟨S65x2048, .f32⟩
  | .hbm, ⟨50, _⟩ => ⟨S65x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S65x2048, .f32⟩
  | .hbm, ⟨55, _⟩ => ⟨S65x2048, .f32⟩
  | .hbm, ⟨56, _⟩ => ⟨S65x2048, .f32⟩
  | .hbm, ⟨57, _⟩ => ⟨S65x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S1x2048, .f32⟩
  | .hbm, ⟨62, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  slices_S1x6144_S1x2048_0_0 : S1x6144.Slices ![0, 0] S1x2048
  bcast_S_S1x2048 : S_.BroadcastsInDim S1x2048 (![] : Fin 0 → Fin S1x2048.rank)
  slices_S1x6144_S1x2048_0_2048 : S1x6144.Slices ![0, 2048] S1x2048
  slices_S1x6144_S1x2048_0_4096 : S1x6144.Slices ![0, 4096] S1x2048
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S_S64x2048 : S_.BroadcastsInDim S64x2048 (![] : Fin 0 → Fin S64x2048.rank)
  concatenates_S1x2048_S64x2048_S65x2048_d0 : Shape.Concatenates [S1x2048, S64x2048] S65x2048 0
  reducesTo_S65x2048_S2048_d0 : S65x2048.ReducesTo [0] S2048
  h_S_ : 0 < S_.numel
  bcast_S1x2048_S65x2048_0_1 : S1x2048.BroadcastsInDim S65x2048 (![0, 1] : Fin 2 → Fin S65x2048.rank)
  dot_S1x2048_S2048x6144_S1x6144_1_0_0_1_n_n_wf : DotDims.WF S1x2048 S2048x6144 S1x6144 [1] [0] [0] [1] [] []
  dot_S1x2048_S2048x2048_S1x2048_1_0_0_1_n_n_wf : DotDims.WF S1x2048 S2048x2048 S1x2048 [1] [0] [0] [1] [] []
  dot_S64x2048_S2048x2048_S64x2048_1_0_0_1_n_n_wf : DotDims.WF S64x2048 S2048x2048 S64x2048 [1] [0] [0] [1] [] []

variable [Facts₀]

def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

class Facts : Prop extends Facts₀ where

variable [Facts]
-- ==== Proof.KBody.lean ====
/-
  The kernel body at one grid point, for every float instance: run on whole staging buffers — the sixteen input
  blocks at given contents, the two output blocks at anything — it loads every block whole, computes, and stores
  one whole [1,256] row into each output block; it ends with the inputs as they were, the hidden-state block at
  the second payload of the loaded blocks and the cell-state block at the first.
-/
import proofs.«140369_j5574867550454_1_alg».proof.Proof.Gen.Kernel.Launch
import proofs.«140369_j5574867550454_1_alg».proof.Proof.Gen.Kernel.Skeleton
import proofs.«140369_j5574867550454_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: every block whole -/

abbrev r_S1x2048 : Rect S1x2048 := Rect.unit (s := S1x2048) ![0, 0] S1x2048.size inb_S1x2048_S1x2048_0_0
abbrev r_S64x2048 : Rect S64x2048 := Rect.unit (s := S64x2048) ![0, 0] S64x2048.size inb_S64x2048_S64x2048_0_0
abbrev r_S64x256 : Rect S64x256 := Rect.unit (s := S64x256) ![0, 0] S64x256.size inb_S64x256_S64x256_0_0
abbrev r_S2048x256 : Rect S2048x256 := Rect.unit (s := S2048x256) ![0, 0] S2048x256.size inb_S2048x256_S2048x256_0_0
abbrev r_S1x256 : Rect S1x256 := Rect.unit (s := S1x256) ![0, 0] S1x256.size inb_S1x256_S1x256_0_0

/-! ## What the body leaves in the two output blocks -/

/-- The hidden-state block after the body: its one store, the whole row, of the output gate times tanh of the new cell row. -/
def out0_16 (x0 : Vec F S1x2048 .f32) (x1 : Vec F S1x2048 .f32) (x2 : Vec F S64x2048 .f32) (x3 : Vec F S64x256 .f32) (x4 : Vec F S2048x256 .f32) (x5 : Vec F S2048x256 .f32) (x6 : Vec F S2048x256 .f32) (x7 : Vec F S2048x256 .f32) (x8 : Vec F S2048x256 .f32) (x9 : Vec F S2048x256 .f32) (x10 : Vec F S2048x256 .f32) (x11 : Vec F S2048x256 .f32) (x12 : Vec F S1x256 .f32) (x13 : Vec F S1x256 .f32) (x14 : Vec F S1x256 .f32) (x15 : Vec F S1x256 .f32) : Vec F S1x256 .f32 :=
  View.canon [⟨r_S1x256, k0_pay2 (View.ld x0 r_S1x2048) (View.ld x2 r_S64x2048) (View.ld x3 r_S64x256) (k0_pay3 (View.ld x0 r_S1x2048) (View.ld x1 r_S1x2048) (View.ld x7 r_S2048x256) (View.ld x4 r_S2048x256) (View.ld x12 r_S1x256)) (k0_pay4 (View.ld x0 r_S1x2048) (View.ld x1 r_S1x2048) (View.ld x8 r_S2048x256) (View.ld x5 r_S2048x256) (View.ld x13 r_S1x256)) (k0_pay5 (View.ld x0 r_S1x2048) (View.ld x1 r_S1x2048) (View.ld x9 r_S2048x256) (View.ld x6 r_S2048x256)) (k0_pay6 (View.ld x14 r_S1x256)) (View.ld x10 r_S2048x256) (View.ld x15 r_S1x256) (View.ld x11 r_S2048x256)⟩]

/-- The cell-state block after the body: its one store, the whole row, of the new cell row. -/
def out0_17 (x0 : Vec F S1x2048 .f32) (x1 : Vec F S1x2048 .f32) (x2 : Vec F S64x2048 .f32) (x3 : Vec F S64x256 .f32) (x4 : Vec F S2048x256 .f32) (x5 : Vec F S2048x256 .f32) (x6 : Vec F S2048x256 .f32) (x7 : Vec F S2048x256 .f32) (x8 : Vec F S2048x256 .f32) (x9 : Vec F S2048x256 .f32) (x10 : Vec F S2048x256 .f32) (x11 : Vec F S2048x256 .f32) (x12 : Vec F S1x256 .f32) (x13 : Vec F S1x256 .f32) (x14 : Vec F S1x256 .f32) (x15 : Vec F S1x256 .f32) : Vec F S1x256 .f32 :=
  View.canon [⟨r_S1x256, k0_pay1 (View.ld x0 r_S1x2048) (View.ld x2 r_S64x2048) (View.ld x3 r_S64x256) (k0_pay3 (View.ld x0 r_S1x2048) (View.ld x1 r_S1x2048) (View.ld x7 r_S2048x256) (View.ld x4 r_S2048x256) (View.ld x12 r_S1x256)) (k0_pay5 (View.ld x0 r_S1x2048) (View.ld x1 r_S1x2048) (View.ld x9 r_S2048x256) (View.ld x6 r_S2048x256)) (k0_pay6 (View.ld x14 r_S1x256)) (View.ld x10 r_S2048x256) (View.ld x15 r_S1x256) (View.ld x11 r_S2048x256)⟩]

/-- One whole-row store covers the block. -/
theorem cover0_16 (p0 : Vec F S1x256 .f32) (y : S1x256.Idx) :
    ∃ pc ∈ ([⟨r_S1x256, p0⟩] : List (View.Piece (Elt F) S1x256 .f32)), y ∈ pc.1.set :=
  View.cover_of_tiled [⟨r_S1x256, p0⟩] S1x256.size (by rfl) y
theorem cover0_17 (p0 : Vec F S1x256 .f32) (y : S1x256.Idx) :
    ∃ pc ∈ ([⟨r_S1x256, p0⟩] : List (View.Piece (Elt F) S1x256 .f32)), y ∈ pc.1.set :=
  View.cover_of_tiled [⟨r_S1x256, p0⟩] S1x256.size (by rfl) y

/-! ## The body's triple -/

set_option maxHeartbeats 4000000 in
/-- The body on whole staging buffers, the inputs' at read contents `xW` and the outputs' at anything, runs to the
    continuation holding the inputs' as they were and each output's at `out0_W` of the inputs'. -/
theorem sound_kernel (c : Dev nD) (E : Set ℕ) (i : grid0.Coords) (arg1 : Memref sig .tc .vmem S1x2048 .f32) (harg1 : arg1.IsWhole) (arg2 : Memref sig .tc .vmem S1x2048 .f32) (harg2 : arg2.IsWhole) (arg3 : Memref sig .tc .vmem S64x2048 .f32) (harg3 : arg3.IsWhole) (arg4 : Memref sig .tc .vmem S64x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole)
    (x0 : Vec F S1x2048 .f32) (x1 : Vec F S1x2048 .f32) (x2 : Vec F S64x2048 .f32) (x3 : Vec F S64x256 .f32) (x4 : Vec F S2048x256 .f32) (x5 : Vec F S2048x256 .f32) (x6 : Vec F S2048x256 .f32) (x7 : Vec F S2048x256 .f32) (x8 : Vec F S2048x256 .f32) (x9 : Vec F S2048x256 .f32) (x10 : Vec F S2048x256 .f32) (x11 : Vec F S2048x256 .f32) (x12 : Vec F S1x256 .f32) (x13 : Vec F S1x256 .f32) (x14 : Vec F S1x256 .f32) (x15 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15) ∗ owns (c : Thread nD τ) arg18 fullShare (out0_17 x0 x1 x2 x3 x4 x5 x6 x7 x8 x9 x10 x11 x12 x13 x14 x15)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    try dsimp only
    exact View.read_writes_eq_canon _ _ _ (cover0_16 _)
  iexists _; isplitr
  swap; · iexact H17
  ipureintro
  try dsimp only
  exact View.read_writes_eq_canon _ _ _ (cover0_17 _)

end Cert.Kernel.Hand

end
-- ==== Proof.KData.lean ====
/-
  The proof data of the one pipeline, for every float instance: the arrays as the region finds them (the two bias
  vectors reshaped to rows by the host beforehand), what each window's staging buffer holds after the body at each
  grid point (an input its block, an output the body's store), and the body obligation at every point.
  Four arrays are handed to the kernel through several windows (the skip cells twice; each gate weight matrix and
  the bias row three times, once per gate): each such array's full share is dealt among its windows.
-/
import proofs.«140369_j5574867550454_1_alg».proof.Proof.Gen.Kernel.Launch
import proofs.«140369_j5574867550454_1_alg».proof.Proof.Gen.Kernel.Skeleton
import proofs.«140369_j5574867550454_1_alg».proof.Proof.Gen.Kernel.Points
import proofs.«140369_j5574867550454_1_alg».proof.Proof.KBody
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two host reshapes of the bias vectors. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`. The invariant is the scoped rest (this kernel keeps nothing between points); nothing
    is owed; an array read through several windows is held by each at a part of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 18, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare.left
    | ⟨5, _⟩ => fullShare.right.left
    | ⟨6, _⟩ => fullShare.right.right
    | ⟨7, _⟩ => fullShare.left
    | ⟨8, _⟩ => fullShare.right.left
    | ⟨9, _⟩ => fullShare.right.right
    | ⟨10, _⟩ => fullShare
    | ⟨11, _⟩ => fullShare
    | ⟨12, _⟩ => fullShare.left
    | ⟨13, _⟩ => fullShare.right.left
    | ⟨14, _⟩ => fullShare.right.right
    | ⟨15, _⟩ => fullShare
    | ⟨16, _⟩ => fullShare
    | ⟨17, _⟩ => fullShare
    | ⟨_ + 18, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 2000000 in
/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The run of the kernel program, for every float instance: every weakly fair execution of @main terminates without
  a fault, each windowed array ends at what the write-backs of the eight grid points leave in it (an input array
  unchanged), and every other buffer as the region found it. The launch deals each array that several input
  windows read among those windows by splitting its full share.
-/
import proofs.«140369_j5574867550454_1_alg».proof.Proof.Gen.Kernel.Launch
import proofs.«140369_j5574867550454_1_alg».proof.Proof.Gen.Kernel.Skeleton
import proofs.«140369_j5574867550454_1_alg».proof.Proof.Gen.Kernel.Points
import proofs.«140369_j5574867550454_1_alg».proof.Proof.KData
import Idealize.ShloMosaic.Lib.Pipeline.Launch
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each window's array, as the launch hands it over -/

theorem arrpt_0 (c : Dev nD) :
    ((cfg0.win 0).arr.view.loc (c.tc : Thread nD τ) ↦[(cfg0.win 0).arr.view.set]{(dats m 0 c).share 0} (dats m 0 c).arrAt 0 0 : sProp 𝕄)
      = (((c : Thread nD τ).loc main_arg0) ↦{fullShare} V m c main_arg0) := by
  rw [(arr_whole0 0).set_eq_univ]; rfl
theorem arrpt_1 (c : Dev nD) :
    ((cfg0.win 1).arr.view.loc (c.tc : Thread nD τ) ↦[(cfg0.win 1).arr.view.set]{(dats m 0 c).share 1} (dats m 0 c).arrAt 1 0 : sProp 𝕄)
      = (((c : Thread nD τ).loc main_arg2) ↦{fullShare} V m c main_arg2) := by
  rw [(arr_whole0 1).set_eq_univ]; rfl
theorem arrpt_2 (c : Dev nD) :
    ((cfg0.win 2).arr.view.loc (c.tc : Thread nD τ) ↦[(cfg0.win 2).arr.view.set]{(dats m 0 c).share 2} (dats m 0 c).arrAt 2 0 : sProp 𝕄)
      = (((c : Thread nD τ).loc main_arg1) ↦{fullShare.left} V m c main_arg1) := by
  rw [(arr_whole0 2).set_eq_univ]; rfl
theorem arrpt_3 (c : Dev nD) :
    ((cfg0.win 3).arr.view.loc (c.tc : Thread nD τ) ↦[(cfg0.win 3).arr.view.set]{(dats m 0 c).share 3} (dats m 0 c).arrAt 3 0 : sProp 𝕄)
      = (((c : Thread nD τ).loc main_arg1) ↦{fullShare.right} V m c main_arg1) := by
  rw [(arr_whole0 3).set_eq_univ]; rfl
theorem arrpt_4 (c : Dev nD) :
    ((cfg0.win 4).arr.view.loc (c.tc : Thread nD τ) ↦[(cfg0.win 4).arr.view.set]{(dats m 0 c).share 4} (dats m 0 c).arrAt 4 0 : sProp 𝕄)
      = (((c : Thread nD τ).loc main_arg4) ↦{fullShare.left} V m c main_arg4) := by
  rw [(arr_whole0 4).set_eq_univ]; rfl
theorem arrpt_5 (c : Dev nD) :
    ((cfg0.win 5).arr.view.loc (c.tc : Thread nD τ) ↦[(cfg0.win 5).arr.view.set]{(dats m 0 c).share 5} (dats m 0 c).arrAt 5 0 : sProp 𝕄)
      = (((c : Thread nD τ).loc main_arg4) ↦{fullShare.right.left} V m c main_arg4) := by
  rw [(arr_whole0 5).set_eq_univ]; rfl
theorem arrpt_6 (c : Dev nD) :
    ((cfg0.win 6).arr.view.loc (c.tc : Thread nD τ) ↦[(cfg0.win 6).arr.view.set]{(dats m 0 c).share 6} (dats m 0 c).arrAt 6 0 : sProp 𝕄)
      = (((c : Thread nD τ).loc main_arg4) ↦{fullShare.right.right} V m c main_arg4) := by
  rw [(arr_whole0 6).set_eq_univ]; rfl
theorem arrpt_7 (c : Dev nD) :
    ((cfg0.win 7).arr.view.loc (c.tc : Thread nD τ) ↦[(cfg0.win 7).arr.view.set]{(dats m 0 c).share 7} (dats m 0 c).arrAt 7 0 : sProp 𝕄)
      = (((c : Thread nD τ).loc main_arg5) ↦{fullShare.left} V m c main_arg5) := by
  rw [(arr_whole0 7).set_eq_univ]; rfl
theorem arrpt_8 (c : Dev nD) :
    ((cfg0.win 8).arr.view.loc (c.tc : Thread nD τ) ↦[(cfg0.win 8).arr.view.set]{(dats m 0 c).share 8} (dats m 0 c).arrAt 8 0 : sProp 𝕄)
      = (((c : Thread nD τ).loc main_arg5) ↦{fullShare.right.left} V m c main_arg5) := by
  rw [(arr_whole0 8).set_eq_univ]; rfl
theorem arrpt_9 (c : Dev nD) :
    ((cfg0.win 9).arr.view.loc (c.tc : Thread nD τ) ↦[(cfg0.win 9).arr.view.set]{(dats m 0 c).share 9} (dats m 0 c).arrAt 9 0 : sProp 𝕄)
      = (((c : Thread nD τ).loc main_arg5) ↦{fullShare.right.right} V m c main_arg5) := by
  rw [(arr_whole0 9).set_eq_univ]; rfl
theorem arrpt_10 (c : Dev nD) :
    ((cfg0.win 10).arr.view.loc (c.tc : Thread nD τ) ↦[(cfg0.win 10).arr.view.set]{(dats m 0 c).share 10} (dats m 0 c).arrAt 10 0 : sProp 𝕄)
      = (((c : Thread nD τ).loc main_arg6) ↦{fullShare} V m c main_arg6) := by
  rw [(arr_whole0 10).set_eq_univ]; rfl
theorem arrpt_11 (c : Dev nD) :
    ((cfg0.win 11).arr.view.loc (c.tc : Thread nD τ) ↦[(cfg0.win 11).arr.view.set]{(dats m 0 c).share 11} (dats m 0 c).arrAt 11 0 : sProp 𝕄)
      = (((c : Thread nD τ).loc main_arg7) ↦{fullShare} V m c main_arg7) := by
  rw [(arr_whole0 11).set_eq_univ]; rfl
theorem arrpt_12 (c : Dev nD) :
    ((cfg0.win 12).arr.view.loc (c.tc : Thread nD τ) ↦[(cfg0.win 12).arr.view.set]{(dats m 0 c).share 12} (dats m 0 c).arrAt 12 0 : sProp 𝕄)
      = (((c : Thread nD τ).loc main_v0) ↦{fullShare.left} V m c main_v0) := by
  rw [(arr_whole0 12).set_eq_univ]; rfl
theorem arrpt_13 (c : Dev nD) :
    ((cfg0.win 13).arr.view.loc (c.tc : Thread nD τ) ↦[(cfg0.win 13).arr.view.set]{(dats m 0 c).share 13} (dats m 0 c).arrAt 13 0 : sProp 𝕄)
      = (((c : Thread nD τ).loc main_v0) ↦{fullShare.right.left} V m c main_v0) := by
  rw [(arr_whole0 13).set_eq_univ]; rfl
theorem arrpt_14 (c : Dev nD) :
    ((cfg0.win 14).arr.view.loc (c.tc : Thread nD τ) ↦[(cfg0.win 14).arr.view.set]{(dats m 0 c).share 14} (dats m 0 c).arrAt 14 0 : sProp 𝕄)
      = (((c : Thread nD τ).loc main_v0) ↦{fullShare.right.right} V m c main_v0) := by
  rw [(arr_whole0 14).set_eq_univ]; rfl
theorem arrpt_15 (c : Dev nD) :
    ((cfg0.win 15).arr.view.loc (c.tc : Thread nD τ) ↦[(cfg0.win 15).arr.view.set]{(dats m 0 c).share 15} (dats m 0 c).arrAt 15 0 : sProp 𝕄)
      = (((c : Thread nD τ).loc main_v1) ↦{fullShare} V m c main_v1) := by
  rw [(arr_whole0 15).set_eq_univ]; rfl
theorem arrpt_16 (c : Dev nD) :
    ((cfg0.win 16).arr.view.loc (c.tc : Thread nD τ) ↦[(cfg0.win 16).arr.view.set]{(dats m 0 c).share 16} (dats m 0 c).arrAt 16 0 : sProp 𝕄)
      = (((c : Thread nD τ).loc main_v2_0) ↦{fullShare} V m c main_v2_0) := by
  rw [(arr_whole0 16).set_eq_univ]; rfl
theorem arrpt_17 (c : Dev nD) :
    ((cfg0.win 17).arr.view.loc (c.tc : Thread nD τ) ↦[(cfg0.win 17).arr.view.set]{(dats m 0 c).share 17} (dats m 0 c).arrAt 17 0 : sProp 𝕄)
      = (((c : Thread nD τ).loc main_v2_1) ↦{fullShare} V m c main_v2_1) := by
  rw [(arr_whole0 17).set_eq_univ]; rfl

/-- The distinct buffers behind the windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2) ∗ (((c : Thread nD τ).loc main_arg1) ↦{fullShare} V m c main_arg1) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_v0) ↦{fullShare} V m c main_v0) ∗ (((c : Thread nD τ).loc main_v1) ↦{fullShare} V m c main_v1) ∗ (((c : Thread nD τ).loc main_v2_0) ↦{fullShare} V m c main_v2_0) ∗ (((c : Thread nD τ).loc main_v2_1) ↦{fullShare} V m c main_v2_1)) := by
  unfold Pipeline.arrBufs
  exact bigSep_eq_bigSepL_of_eq [main_arg0, main_arg2, main_arg1, main_arg4, main_arg5, main_arg6, main_arg7, main_v0, main_v1, main_v2_0, main_v2_1] (by decide +kernel) (by decide +kernel) _

/-- The buffers behind the arrays, each whole at the full share, make the proof data's arrays at entry: an array that
    two windows read is split in halves, one that three windows read in a half and two quarters. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Dat.arrays
  rw [arrBufs_eq, bigSep_W0]
  iintro ⟨A0, A2, A1, A4, A5, A6, A7, B0, B1, O0, O1⟩
  ihave A1' := (pointsTo_share (PosShare.mem_left_op_right fullShare)).1 $$ A1
  icases A1' with ⟨A1l, A1r⟩
  ihave A4' := (pointsTo_share (PosShare.mem_left_op_right fullShare)).1 $$ A4
  icases A4' with ⟨A4l, A4r⟩
  ihave A4r' := (pointsTo_share (PosShare.mem_left_op_right fullShare.right)).1 $$ A4r
  icases A4r' with ⟨A4rl, A4rr⟩
  ihave A5' := (pointsTo_share (PosShare.mem_left_op_right fullShare)).1 $$ A5
  icases A5' with ⟨A5l, A5r⟩
  ihave A5r' := (pointsTo_share (PosShare.mem_left_op_right fullShare.right)).1 $$ A5r
  icases A5r' with ⟨A5rl, A5rr⟩
  ihave B0' := (pointsTo_share (PosShare.mem_left_op_right fullShare)).1 $$ B0
  icases B0' with ⟨B0l, B0r⟩
  ihave B0r' := (pointsTo_share (PosShare.mem_left_op_right fullShare.right)).1 $$ B0r
  icases B0r' with ⟨B0rl, B0rr⟩
  isplitl [A0]
  · iapply (Entails.of_eq (arrpt_0 m c).symm); iexact A0
  isplitl [A2]
  · iapply (Entails.of_eq (arrpt_1 m c).symm); iexact A2
  isplitl [A1l]
  · iapply (Entails.of_eq (arrpt_2 m c).symm); iexact A1l
  isplitl [A1r]
  · iapply (Entails.of_eq (arrpt_3 m c).symm); iexact A1r
  isplitl [A4l]
  · iapply (Entails.of_eq (arrpt_4 m c).symm); iexact A4l
  isplitl [A4rl]
  · iapply (Entails.of_eq (arrpt_5 m c).symm); iexact A4rl
  isplitl [A4rr]
  · iapply (Entails.of_eq (arrpt_6 m c).symm); iexact A4rr
  isplitl [A5l]
  · iapply (Entails.of_eq (arrpt_7 m c).symm); iexact A5l
  isplitl [A5rl]
  · iapply (Entails.of_eq (arrpt_8 m c).symm); iexact A5rl
  isplitl [A5rr]
  · iapply (Entails.of_eq (arrpt_9 m c).symm); iexact A5rr
  isplitl [A6]
  · iapply (Entails.of_eq (arrpt_10 m c).symm); iexact A6
  isplitl [A7]
  · iapply (Entails.of_eq (arrpt_11 m c).symm); iexact A7
  isplitl [B0l]
  · iapply (Entails.of_eq (arrpt_12 m c).symm); iexact B0l
  isplitl [B0rl]
  · iapply (Entails.of_eq (arrpt_13 m c).symm); iexact B0rl
  isplitl [B0rr]
  · iapply (Entails.of_eq (arrpt_14 m c).symm); iexact B0rr
  isplitl [B1]
  · iapply (Entails.of_eq (arrpt_15 m c).symm); iexact B1
  isplitl [O0]
  · iapply (Entails.of_eq (arrpt_16 m c).symm); iexact O0
  iapply (Entails.of_eq (arrpt_17 m c).symm); iexact O1

/-! ## The run -/

set_option backward.isDefEq.respectTransparency.types false in
/-- Every weakly fair execution of @main terminates; every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => by
      show iprop(emp ∗ Pipeline.scopedRest spec0 c) ⊢ Pipeline.scopedRest spec0 c
      iintro ⟨-, H⟩
      iexact H)
    (hout := fun c => by
      show Pipeline.scopedRest spec0 c ⊢ iprop(emp ∗ Pipeline.scopedRest spec0 c)
      iintro H
      isplitr
      · iempintro
      · iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the program runs to the end, faults nowhere, and its ten argument arrays end unchanged — a staged
    argument because an input window's array is never written, the three no window stages because they bypass
    the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).1 4).trans (((dats m 0 c).arrAt_in 4 rfl _).trans ((A_eq m c 4).trans (V_main_arg4 m c))),
      ((h c).1 7).trans (((dats m 0 c).arrAt_in 7 rfl _).trans ((A_eq m c 7).trans (V_main_arg5 m c))),
      ((h c).1 10).trans (((dats m 0 c).arrAt_in 10 rfl _).trans ((A_eq m c 10).trans (V_main_arg6 m c))),
      ((h c).1 11).trans (((dats m 0 c).arrAt_in 11 rfl _).trans ((A_eq m c 11).trans (V_main_arg7 m c))),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

/-- The run with the two result arrays named: the hidden-state and cell-state arrays end at what the library computes
    from the eight write-backs, and the ten argument arrays end unchanged. -/
theorem run_named : θ_run defs (onTc (τ := τ) (main (F := F))) ⟨m, fun _ => 0, ρ⟩ (fun r => ∀ c : Dev nD,
      r.2.mem ((c.tc : Thread nD τ).loc main_v2_0) = (dats m 0 c).arrAt 16 cfg0.N
      ∧ r.2.mem ((c.tc : Thread nD τ).loc main_v2_1) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 16, (h c).1 17, ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).1 4).trans (((dats m 0 c).arrAt_in 4 rfl _).trans ((A_eq m c 4).trans (V_main_arg4 m c))),
      ((h c).1 7).trans (((dats m 0 c).arrAt_in 7 rfl _).trans ((A_eq m c 7).trans (V_main_arg5 m c))),
      ((h c).1 10).trans (((dats m 0 c).arrAt_in 10 rfl _).trans ((A_eq m c 10).trans (V_main_arg6 m c))),
      ((h c).1 11).trans (((dats m 0 c).arrAt_in 11 rfl _).trans ((A_eq m c 11).trans (V_main_arg7 m c))),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

end Cert.Kernel.Hand

end
-- ==== Proof.KIBody.lean ====
/-
  The kernel body at one grid point, for every float instance: run on whole staging buffers — the sixteen input
  blocks at given contents, the two output blocks at anything — it loads every block whole, computes, and stores
  one whole [1,256] row into each output block; it ends with the inputs as they were, the hidden-state block at
  the second payload of the loaded blocks and the cell-state block at the first.
-/
import proofs.«140369_j5574867550454_1_alg».proof.Proof.Gen.KernelIdeal.Launch
import proofs.«140369_j5574867550454_1_alg».proof.Proof.Gen.KernelIdeal.Skeleton
import proofs.«140369_j5574867550454_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: every block whole -/

abbrev r_S1x2048 : Rect S1x2048 := Rect.unit (s := S1x2048) ![0, 0] S1x2048.size inb_S1x2048_S1x2048_0_0
abbrev r_S64x2048 : Rect S64x2048 := Rect.unit (s := S64x2048) ![0, 0] S64x2048.size inb_S64x2048_S64x2048_0_0
abbrev r_S64x256 : Rect S64x256 := Rect.unit (s := S64x256) ![0, 0] S64x256.size inb_S64x256_S64x256_0_0
abbrev r_S2048x256 : Rect S2048x256 := Rect.unit (s := S2048x256) ![0, 0] S2048x256.size inb_S2048x256_S2048x256_0_0
abbrev r_S1x256 : Rect S1x256 := Rect.unit (s := S1x256) ![0, 0] S1x256.size inb_S1x256_S1x256_0_0

/-! ## What the body leaves in the two output blocks -/

/-- The hidden-state block after the body: its one store, the whole row, of the output gate times tanh of the new cell row. -/
def out0_16 (x0 : Vec F S1x2048 .f32) (x1 : Vec F S1x2048 .f32) (x2 : Vec F S64x2048 .f32) (x3 : Vec F S64x256 .f32) (x4 : Vec F S2048x256 .f32) (x5 : Vec F S2048x256 .f32) (x6 : Vec F S2048x256 .f32) (x7 : Vec F S2048x256 .f32) (x8 : Vec F S2048x256 .f32) (x9 : Vec F S2048x256 .f32) (x10 : Vec F S2048x256 .f32) (x11 : Vec F S2048x256 .f32) (x12 : Vec F S1x256 .f32) (x13 : Vec F S1x256 .f32) (x14 : Vec F S1x256 .f32) (x15 : Vec F S1x256 .f32) : Vec F S1x256 .f32 :=
  View.canon [⟨r_S1x256, k0_pay2 (View.ld x0 r_S1x2048) (View.ld x2 r_S64x2048) (View.ld x3 r_S64x256) (k0_pay3 (View.ld x0 r_S1x2048) (View.ld x1 r_S1x2048) (View.ld x7 r_S2048x256) (View.ld x4 r_S2048x256) (View.ld x12 r_S1x256)) (k0_pay4 (View.ld x0 r_S1x2048) (View.ld x1 r_S1x2048) (View.ld x8 r_S2048x256) (View.ld x5 r_S2048x256) (View.ld x13 r_S1x256)) (k0_pay5 (View.ld x0 r_S1x2048) (View.ld x1 r_S1x2048) (View.ld x9 r_S2048x256) (View.ld x6 r_S2048x256)) (k0_pay6 (View.ld x14 r_S1x256)) (View.ld x10 r_S2048x256) (View.ld x15 r_S1x256) (View.ld x11 r_S2048x256)⟩]

/-- The cell-state block after the body: its one store, the whole row, of the new cell row. -/
def out0_17 (x0 : Vec F S1x2048 .f32) (x1 : Vec F S1x2048 .f32) (x2 : Vec F S64x2048 .f32) (x3 : Vec F S64x256 .f32) (x4 : Vec F S2048x256 .f32) (x5 : Vec F S2048x256 .f32) (x6 : Vec F S2048x256 .f32) (x7 : Vec F S2048x256 .f32) (x8 : Vec F S2048x256 .f32) (x9 : Vec F S2048x256 .f32) (x10 : Vec F S2048x256 .f32) (x11 : Vec F S2048x256 .f32) (x12 : Vec F S1x256 .f32) (x13 : Vec F S1x256 .f32) (x14 : Vec F S1x256 .f32) (x15 : Vec F S1x256 .f32) : Vec F S1x256 .f32 :=
  View.canon [⟨r_S1x256, k0_pay1 (View.ld x0 r_S1x2048) (View.ld x2 r_S64x2048) (View.ld x3 r_S64x256) (k0_pay3 (View.ld x0 r_S1x2048) (View.ld x1 r_S1x2048) (View.ld x7 r_S2048x256) (View.ld x4 r_S2048x256) (View.ld x12 r_S1x256)) (k0_pay5 (View.ld x0 r_S1x2048) (View.ld x1 r_S1x2048) (View.ld x9 r_S2048x256) (View.ld x6 r_S2048x256)) (k0_pay6 (View.ld x14 r_S1x256)) (View.ld x10 r_S2048x256) (View.ld x15 r_S1x256) (View.ld x11 r_S2048x256)⟩]

/-- One whole-row store covers the block. -/
theorem cover0_16 (p0 : Vec F S1x256 .f32) (y : S1x256.Idx) :
    ∃ pc ∈ ([⟨r_S1x256, p0⟩] : List (View.Piece (Elt F) S1x256 .f32)), y ∈ pc.1.set :=
  View.cover_of_tiled [⟨r_S1x256, p0⟩] S1x256.size (by rfl) y
theorem cover0_17 (p0 : Vec F S1x256 .f32) (y : S1x256.Idx) :
    ∃ pc ∈ ([⟨r_S1x256, p0⟩] : List (View.Piece (Elt F) S1x256 .f32)), y ∈ pc.1.set :=
  View.cover_of_tiled [⟨r_S1x256, p0⟩] S1x256.size (by rfl) y

/-! ## The body's triple -/

set_option maxHeartbeats 4000000 in
/-- The body on whole staging buffers, the inputs' at read contents `xW` and the outputs' at anything, runs to the
    continuation holding the inputs' as they were and each output's at `out0_W` of the inputs'. -/
theorem sound_kernel (c : Dev nD) (E : Set ℕ) (i : grid0.Coords) (arg1 : Memref sig .tc .vmem S1x2048 .f32) (harg1 : arg1.IsWhole) (arg2 : Memref sig .tc .vmem S1x2048 .f32) (harg2 : arg2.IsWhole) (arg3 : Memref sig .tc .vmem S64x2048 .f32) (harg3 : arg3.IsWhole) (arg4 : Memref sig .tc .vmem S64x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x256 .f32) (harg18 : arg18.IsWhole)
    (x0 : Vec F S1x2048 .f32) (x1 : Vec F S1x2048 .f32) (x2 : Vec F S64x2048 .f32) (x3 : Vec F S64x256 .f32) (x4 : Vec F S2048x256 .f32) (x5 : Vec F S2048x256 .f32) (x6 : Vec F S2048x256 .f32) (x7 : Vec F S2048x256 .f32) (x8 : Vec F S2048x256 .f32) (x9 : Vec F S2048x256 .f32) (x10 : Vec F S2048x256 .f32) (x11 : Vec F S2048x256 .f32) (x12 : Vec F S1x256 .f32) (x13 : Vec F S1x256 .f32) (x14 : Vec F S1x256 .f32) (x15 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15) ∗ owns (c : Thread nD τ) arg18 fullShare (out0_17 x0 x1 x2 x3 x4 x5 x6 x7 x8 x9 x10 x11 x12 x13 x14 x15)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    try dsimp only
    exact View.read_writes_eq_canon _ _ _ (cover0_16 _)
  iexists _; isplitr
  swap; · iexact H17
  ipureintro
  try dsimp only
  exact View.read_writes_eq_canon _ _ _ (cover0_17 _)

end Cert.KernelIdeal.Hand

end
-- ==== Proof.KIData.lean ====
/-
  The proof data of the one pipeline, for every float instance: the arrays as the region finds them (the two bias
  vectors reshaped to rows by the host beforehand), what each window's staging buffer holds after the body at each
  grid point (an input its block, an output the body's store), and the body obligation at every point.
  Four arrays are handed to the kernel through several windows (the skip cells twice; each gate weight matrix and
  the bias row three times, once per gate): each such array's full share is dealt among its windows.
-/
import proofs.«140369_j5574867550454_1_alg».proof.Proof.Gen.KernelIdeal.Launch
import proofs.«140369_j5574867550454_1_alg».proof.Proof.Gen.KernelIdeal.Skeleton
import proofs.«140369_j5574867550454_1_alg».proof.Proof.Gen.KernelIdeal.Points
import proofs.«140369_j5574867550454_1_alg».proof.Proof.KIBody
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two host reshapes of the bias vectors. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`. The invariant is the scoped rest (this kernel keeps nothing between points); nothing
    is owed; an array read through several windows is held by each at a part of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 18, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right
    | ⟨4, _⟩ => fullShare.left
    | ⟨5, _⟩ => fullShare.right.left
    | ⟨6, _⟩ => fullShare.right.right
    | ⟨7, _⟩ => fullShare.left
    | ⟨8, _⟩ => fullShare.right.left
    | ⟨9, _⟩ => fullShare.right.right
    | ⟨10, _⟩ => fullShare
    | ⟨11, _⟩ => fullShare
    | ⟨12, _⟩ => fullShare.left
    | ⟨13, _⟩ => fullShare.right.left
    | ⟨14, _⟩ => fullShare.right.right
    | ⟨15, _⟩ => fullShare
    | ⟨16, _⟩ => fullShare
    | ⟨17, _⟩ => fullShare
    | ⟨_ + 18, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 2000000 in
/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The run of the kernel program, for every float instance: every weakly fair execution of @main terminates without
  a fault, each windowed array ends at what the write-backs of the eight grid points leave in it (an input array
  unchanged), and every other buffer as the region found it. The launch deals each array that several input
  windows read among those windows by splitting its full share.
-/
import proofs.«140369_j5574867550454_1_alg».proof.Proof.Gen.KernelIdeal.Launch
import proofs.«140369_j5574867550454_1_alg».proof.Proof.Gen.KernelIdeal.Skeleton
import proofs.«140369_j5574867550454_1_alg».proof.Proof.Gen.KernelIdeal.Points
import proofs.«140369_j5574867550454_1_alg».proof.Proof.KIData
import Idealize.ShloMosaic.Lib.Pipeline.Launch
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each window's array, as the launch hands it over -/

theorem arrpt_0 (c : Dev nD) :
    ((cfg0.win 0).arr.view.loc (c.tc : Thread nD τ) ↦[(cfg0.win 0).arr.view.set]{(dats m 0 c).share 0} (dats m 0 c).arrAt 0 0 : sProp 𝕄)
      = (((c : Thread nD τ).loc main_arg0) ↦{fullShare} V m c main_arg0) := by
  rw [(arr_whole0 0).set_eq_univ]; rfl
theorem arrpt_1 (c : Dev nD) :
    ((cfg0.win 1).arr.view.loc (c.tc : Thread nD τ) ↦[(cfg0.win 1).arr.view.set]{(dats m 0 c).share 1} (dats m 0 c).arrAt 1 0 : sProp 𝕄)
      = (((c : Thread nD τ).loc main_arg2) ↦{fullShare} V m c main_arg2) := by
  rw [(arr_whole0 1).set_eq_univ]; rfl
theorem arrpt_2 (c : Dev nD) :
    ((cfg0.win 2).arr.view.loc (c.tc : Thread nD τ) ↦[(cfg0.win 2).arr.view.set]{(dats m 0 c).share 2} (dats m 0 c).arrAt 2 0 : sProp 𝕄)
      = (((c : Thread nD τ).loc main_arg1) ↦{fullShare.left} V m c main_arg1) := by
  rw [(arr_whole0 2).set_eq_univ]; rfl
theorem arrpt_3 (c : Dev nD) :
    ((cfg0.win 3).arr.view.loc (c.tc : Thread nD τ) ↦[(cfg0.win 3).arr.view.set]{(dats m 0 c).share 3} (dats m 0 c).arrAt 3 0 : sProp 𝕄)
      = (((c : Thread nD τ).loc main_arg1) ↦{fullShare.right} V m c main_arg1) := by
  rw [(arr_whole0 3).set_eq_univ]; rfl
theorem arrpt_4 (c : Dev nD) :
    ((cfg0.win 4).arr.view.loc (c.tc : Thread nD τ) ↦[(cfg0.win 4).arr.view.set]{(dats m 0 c).share 4} (dats m 0 c).arrAt 4 0 : sProp 𝕄)
      = (((c : Thread nD τ).loc main_arg4) ↦{fullShare.left} V m c main_arg4) := by
  rw [(arr_whole0 4).set_eq_univ]; rfl
theorem arrpt_5 (c : Dev nD) :
    ((cfg0.win 5).arr.view.loc (c.tc : Thread nD τ) ↦[(cfg0.win 5).arr.view.set]{(dats m 0 c).share 5} (dats m 0 c).arrAt 5 0 : sProp 𝕄)
      = (((c : Thread nD τ).loc main_arg4) ↦{fullShare.right.left} V m c main_arg4) := by
  rw [(arr_whole0 5).set_eq_univ]; rfl
theorem arrpt_6 (c : Dev nD) :
    ((cfg0.win 6).arr.view.loc (c.tc : Thread nD τ) ↦[(cfg0.win 6).arr.view.set]{(dats m 0 c).share 6} (dats m 0 c).arrAt 6 0 : sProp 𝕄)
      = (((c : Thread nD τ).loc main_arg4) ↦{fullShare.right.right} V m c main_arg4) := by
  rw [(arr_whole0 6).set_eq_univ]; rfl
theorem arrpt_7 (c : Dev nD) :
    ((cfg0.win 7).arr.view.loc (c.tc : Thread nD τ) ↦[(cfg0.win 7).arr.view.set]{(dats m 0 c).share 7} (dats m 0 c).arrAt 7 0 : sProp 𝕄)
      = (((c : Thread nD τ).loc main_arg5) ↦{fullShare.left} V m c main_arg5) := by
  rw [(arr_whole0 7).set_eq_univ]; rfl
theorem arrpt_8 (c : Dev nD) :
    ((cfg0.win 8).arr.view.loc (c.tc : Thread nD τ) ↦[(cfg0.win 8).arr.view.set]{(dats m 0 c).share 8} (dats m 0 c).arrAt 8 0 : sProp 𝕄)
      = (((c : Thread nD τ).loc main_arg5) ↦{fullShare.right.left} V m c main_arg5) := by
  rw [(arr_whole0 8).set_eq_univ]; rfl
theorem arrpt_9 (c : Dev nD) :
    ((cfg0.win 9).arr.view.loc (c.tc : Thread nD τ) ↦[(cfg0.win 9).arr.view.set]{(dats m 0 c).share 9} (dats m 0 c).arrAt 9 0 : sProp 𝕄)
      = (((c : Thread nD τ).loc main_arg5) ↦{fullShare.right.right} V m c main_arg5) := by
  rw [(arr_whole0 9).set_eq_univ]; rfl
theorem arrpt_10 (c : Dev nD) :
    ((cfg0.win 10).arr.view.loc (c.tc : Thread nD τ) ↦[(cfg0.win 10).arr.view.set]{(dats m 0 c).share 10} (dats m 0 c).arrAt 10 0 : sProp 𝕄)
      = (((c : Thread nD τ).loc main_arg6) ↦{fullShare} V m c main_arg6) := by
  rw [(arr_whole0 10).set_eq_univ]; rfl
theorem arrpt_11 (c : Dev nD) :
    ((cfg0.win 11).arr.view.loc (c.tc : Thread nD τ) ↦[(cfg0.win 11).arr.view.set]{(dats m 0 c).share 11} (dats m 0 c).arrAt 11 0 : sProp 𝕄)
      = (((c : Thread nD τ).loc main_arg7) ↦{fullShare} V m c main_arg7) := by
  rw [(arr_whole0 11).set_eq_univ]; rfl
theorem arrpt_12 (c : Dev nD) :
    ((cfg0.win 12).arr.view.loc (c.tc : Thread nD τ) ↦[(cfg0.win 12).arr.view.set]{(dats m 0 c).share 12} (dats m 0 c).arrAt 12 0 : sProp 𝕄)
      = (((c : Thread nD τ).loc main_v0) ↦{fullShare.left} V m c main_v0) := by
  rw [(arr_whole0 12).set_eq_univ]; rfl
theorem arrpt_13 (c : Dev nD) :
    ((cfg0.win 13).arr.view.loc (c.tc : Thread nD τ) ↦[(cfg0.win 13).arr.view.set]{(dats m 0 c).share 13} (dats m 0 c).arrAt 13 0 : sProp 𝕄)
      = (((c : Thread nD τ).loc main_v0) ↦{fullShare.right.left} V m c main_v0) := by
  rw [(arr_whole0 13).set_eq_univ]; rfl
theorem arrpt_14 (c : Dev nD) :
    ((cfg0.win 14).arr.view.loc (c.tc : Thread nD τ) ↦[(cfg0.win 14).arr.view.set]{(dats m 0 c).share 14} (dats m 0 c).arrAt 14 0 : sProp 𝕄)
      = (((c : Thread nD τ).loc main_v0) ↦{fullShare.right.right} V m c main_v0) := by
  rw [(arr_whole0 14).set_eq_univ]; rfl
theorem arrpt_15 (c : Dev nD) :
    ((cfg0.win 15).arr.view.loc (c.tc : Thread nD τ) ↦[(cfg0.win 15).arr.view.set]{(dats m 0 c).share 15} (dats m 0 c).arrAt 15 0 : sProp 𝕄)
      = (((c : Thread nD τ).loc main_v1) ↦{fullShare} V m c main_v1) := by
  rw [(arr_whole0 15).set_eq_univ]; rfl
theorem arrpt_16 (c : Dev nD) :
    ((cfg0.win 16).arr.view.loc (c.tc : Thread nD τ) ↦[(cfg0.win 16).arr.view.set]{(dats m 0 c).share 16} (dats m 0 c).arrAt 16 0 : sProp 𝕄)
      = (((c : Thread nD τ).loc main_v2_0) ↦{fullShare} V m c main_v2_0) := by
  rw [(arr_whole0 16).set_eq_univ]; rfl
theorem arrpt_17 (c : Dev nD) :
    ((cfg0.win 17).arr.view.loc (c.tc : Thread nD τ) ↦[(cfg0.win 17).arr.view.set]{(dats m 0 c).share 17} (dats m 0 c).arrAt 17 0 : sProp 𝕄)
      = (((c : Thread nD τ).loc main_v2_1) ↦{fullShare} V m c main_v2_1) := by
  rw [(arr_whole0 17).set_eq_univ]; rfl

/-- The distinct buffers behind the windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2) ∗ (((c : Thread nD τ).loc main_arg1) ↦{fullShare} V m c main_arg1) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_v0) ↦{fullShare} V m c main_v0) ∗ (((c : Thread nD τ).loc main_v1) ↦{fullShare} V m c main_v1) ∗ (((c : Thread nD τ).loc main_v2_0) ↦{fullShare} V m c main_v2_0) ∗ (((c : Thread nD τ).loc main_v2_1) ↦{fullShare} V m c main_v2_1)) := by
  unfold Pipeline.arrBufs
  exact bigSep_eq_bigSepL_of_eq [main_arg0, main_arg2, main_arg1, main_arg4, main_arg5, main_arg6, main_arg7, main_v0, main_v1, main_v2_0, main_v2_1] (by decide +kernel) (by decide +kernel) _

/-- The buffers behind the arrays, each whole at the full share, make the proof data's arrays at entry: an array that
    two windows read is split in halves, one that three windows read in a half and two quarters. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Dat.arrays
  rw [arrBufs_eq, bigSep_W0]
  iintro ⟨A0, A2, A1, A4, A5, A6, A7, B0, B1, O0, O1⟩
  ihave A1' := (pointsTo_share (PosShare.mem_left_op_right fullShare)).1 $$ A1
  icases A1' with ⟨A1l, A1r⟩
  ihave A4' := (pointsTo_share (PosShare.mem_left_op_right fullShare)).1 $$ A4
  icases A4' with ⟨A4l, A4r⟩
  ihave A4r' := (pointsTo_share (PosShare.mem_left_op_right fullShare.right)).1 $$ A4r
  icases A4r' with ⟨A4rl, A4rr⟩
  ihave A5' := (pointsTo_share (PosShare.mem_left_op_right fullShare)).1 $$ A5
  icases A5' with ⟨A5l, A5r⟩
  ihave A5r' := (pointsTo_share (PosShare.mem_left_op_right fullShare.right)).1 $$ A5r
  icases A5r' with ⟨A5rl, A5rr⟩
  ihave B0' := (pointsTo_share (PosShare.mem_left_op_right fullShare)).1 $$ B0
  icases B0' with ⟨B0l, B0r⟩
  ihave B0r' := (pointsTo_share (PosShare.mem_left_op_right fullShare.right)).1 $$ B0r
  icases B0r' with ⟨B0rl, B0rr⟩
  isplitl [A0]
  · iapply (Entails.of_eq (arrpt_0 m c).symm); iexact A0
  isplitl [A2]
  · iapply (Entails.of_eq (arrpt_1 m c).symm); iexact A2
  isplitl [A1l]
  · iapply (Entails.of_eq (arrpt_2 m c).symm); iexact A1l
  isplitl [A1r]
  · iapply (Entails.of_eq (arrpt_3 m c).symm); iexact A1r
  isplitl [A4l]
  · iapply (Entails.of_eq (arrpt_4 m c).symm); iexact A4l
  isplitl [A4rl]
  · iapply (Entails.of_eq (arrpt_5 m c).symm); iexact A4rl
  isplitl [A4rr]
  · iapply (Entails.of_eq (arrpt_6 m c).symm); iexact A4rr
  isplitl [A5l]
  · iapply (Entails.of_eq (arrpt_7 m c).symm); iexact A5l
  isplitl [A5rl]
  · iapply (Entails.of_eq (arrpt_8 m c).symm); iexact A5rl
  isplitl [A5rr]
  · iapply (Entails.of_eq (arrpt_9 m c).symm); iexact A5rr
  isplitl [A6]
  · iapply (Entails.of_eq (arrpt_10 m c).symm); iexact A6
  isplitl [A7]
  · iapply (Entails.of_eq (arrpt_11 m c).symm); iexact A7
  isplitl [B0l]
  · iapply (Entails.of_eq (arrpt_12 m c).symm); iexact B0l
  isplitl [B0rl]
  · iapply (Entails.of_eq (arrpt_13 m c).symm); iexact B0rl
  isplitl [B0rr]
  · iapply (Entails.of_eq (arrpt_14 m c).symm); iexact B0rr
  isplitl [B1]
  · iapply (Entails.of_eq (arrpt_15 m c).symm); iexact B1
  isplitl [O0]
  · iapply (Entails.of_eq (arrpt_16 m c).symm); iexact O0
  iapply (Entails.of_eq (arrpt_17 m c).symm); iexact O1

/-! ## The run -/

set_option backward.isDefEq.respectTransparency.types false in
/-- Every weakly fair execution of @main terminates; every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => by
      show iprop(emp ∗ Pipeline.scopedRest spec0 c) ⊢ Pipeline.scopedRest spec0 c
      iintro ⟨-, H⟩
      iexact H)
    (hout := fun c => by
      show Pipeline.scopedRest spec0 c ⊢ iprop(emp ∗ Pipeline.scopedRest spec0 c)
      iintro H
      isplitr
      · iempintro
      · iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: the program runs to the end, faults nowhere, and its ten argument arrays end unchanged — a staged
    argument because an input window's array is never written, the three no window stages because they bypass
    the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).1 4).trans (((dats m 0 c).arrAt_in 4 rfl _).trans ((A_eq m c 4).trans (V_main_arg4 m c))),
      ((h c).1 7).trans (((dats m 0 c).arrAt_in 7 rfl _).trans ((A_eq m c 7).trans (V_main_arg5 m c))),
      ((h c).1 10).trans (((dats m 0 c).arrAt_in 10 rfl _).trans ((A_eq m c 10).trans (V_main_arg6 m c))),
      ((h c).1 11).trans (((dats m 0 c).arrAt_in 11 rfl _).trans ((A_eq m c 11).trans (V_main_arg7 m c))),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

/-- The run with the two result arrays named: the hidden-state and cell-state arrays end at what the library computes
    from the eight write-backs, and the ten argument arrays end unchanged. -/
theorem run_named : θ_run defs (onTc (τ := τ) (main (F := F))) ⟨m, fun _ => 0, ρ⟩ (fun r => ∀ c : Dev nD,
      r.2.mem ((c.tc : Thread nD τ).loc main_v2_0) = (dats m 0 c).arrAt 16 cfg0.N
      ∧ r.2.mem ((c.tc : Thread nD τ).loc main_v2_1) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 16, (h c).1 17, ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).1 4).trans (((dats m 0 c).arrAt_in 4 rfl _).trans ((A_eq m c 4).trans (V_main_arg4 m c))),
      ((h c).1 7).trans (((dats m 0 c).arrAt_in 7 rfl _).trans ((A_eq m c 7).trans (V_main_arg5 m c))),
      ((h c).1 10).trans (((dats m 0 c).arrAt_in 10 rfl _).trans ((A_eq m c 10).trans (V_main_arg6 m c))),
      ((h c).1 11).trans (((dats m 0 c).arrAt_in 11 rfl _).trans ((A_eq m c 11).trans (V_main_arg7 m c))),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

end Cert.KernelIdeal.Hand

end
-- ==== Proof.Spec.lean ====
/-
  The cell the two programs compute, stated once over the argument arrays, index by index, on the extended reals.

  With x, h0 : [1,2048], the skip cells c : [64,2048], gate weights Wih, Whh : [2048,6144], gate bias b : [6144],
  attention weights Aih, Ahh : [2048,2048] and attention bias a : [2048], for every hidden column j < 2048:

    pre(j')   = (Σ_k h0[0,k]·Whh[k,j'] + Σ_k x[0,k]·Wih[k,j']) + b[j']            (j' < 6144)
    i(j) = σ(pre(j)),  o(j) = σ(pre(2048+j)),  g(j) = tanh(pre(4096+j))
    α(r,j)    = σ((Σ_k x[0,k]·Aih[k,j] + a[j]) + Σ_k c[r,k]·Ahh[k,j])             (r < 64)
    logit(0,j) = i(j), logit(r+1,j) = α(r,j);   cand(0,j) = g(j), cand(r+1,j) = c[r,j]
    c1(j)     = Σ_{r<65} cand(r,j) · (exp(logit(r,j)) / Σ_{r'<65} exp(logit(r',j)))
    h1(j)     = o(j) · tanh(c1(j))

  σ is the logistic function 1/(1+e^(-x)), the quotient is the extended reals' division of the ideal instance.
-/
import Idealize.ShloMosaic.PureOps.Ideal
import Idealize.ShloMosaic.Lib.ValueIdx

noncomputable section

open scoped BigOperators

namespace Cert.Spec

open Idealize.ShloMosaic Idealize.ShloMosaic.ValueIdx

/-- The argument arrays the result depends on (the previous cell state is an argument the cell never reads). -/
structure Args where
  /-- the input row, [1, 2048] -/
  x : (⟨2, ![1, 2048]⟩ : Shape).Idx → EReal
  /-- the skip cells, [64, 2048] -/
  cin : (⟨2, ![64, 2048]⟩ : Shape).Idx → EReal
  /-- the previous hidden row, [1, 2048] -/
  h0 : (⟨2, ![1, 2048]⟩ : Shape).Idx → EReal
  /-- the gates' input weights, [2048, 6144] -/
  wih : (⟨2, ![2048, 6144]⟩ : Shape).Idx → EReal
  /-- the gates' hidden weights, [2048, 6144] -/
  whh : (⟨2, ![2048, 6144]⟩ : Shape).Idx → EReal
  /-- the attention's input weights, [2048, 2048] -/
  awih : (⟨2, ![2048, 2048]⟩ : Shape).Idx → EReal
  /-- the attention's cell weights, [2048, 2048] -/
  awhh : (⟨2, ![2048, 2048]⟩ : Shape).Idx → EReal
  /-- the gates' bias, [6144] -/
  b : (⟨1, ![6144]⟩ : Shape).Idx → EReal
  /-- the attention's bias, [2048] -/
  ab : (⟨1, ![2048]⟩ : Shape).Idx → EReal

/-- The three gates' pre-activation at column `j` of the 6144 gate columns. -/
def pre (A : Args) (j : Fin 6144) : EReal :=
  (∑ k : Fin 2048, A.h0 (ix2 (0 : Fin 1) k) * A.whh (ix2 k j) + ∑ k : Fin 2048, A.x (ix2 (0 : Fin 1) k) * A.wih (ix2 k j)) + A.b (ix1 j)

/-- The input gate. -/
def gI (A : Args) (j : Fin 2048) : EReal := Ideal.logistic (pre A ⟨j.val, by omega⟩)
/-- The output gate. -/
def gO (A : Args) (j : Fin 2048) : EReal := Ideal.logistic (pre A ⟨2048 + j.val, by omega⟩)
/-- The candidate. -/
def gG (A : Args) (j : Fin 2048) : EReal := Ideal.tanh (pre A ⟨4096 + j.val, by omega⟩)

/-- The attention gate of skip cell `r` at column `j`. -/
def alpha (A : Args) (r : Fin 64) (j : Fin 2048) : EReal :=
  Ideal.logistic ((∑ k : Fin 2048, A.x (ix2 (0 : Fin 1) k) * A.awih (ix2 k j) + A.ab (ix1 j))
    + ∑ k : Fin 2048, A.cin (ix2 r k) * A.awhh (ix2 k j))

/-- The 65 logits of column `j`: the input gate, then the 64 attention gates. -/
def logit (A : Args) (r : Fin 65) (j : Fin 2048) : EReal :=
  if r.val = 0 then gI A j else alpha A ⟨r.val - 1, by omega⟩ j

/-- The 65 values merged at column `j`: the candidate, then the 64 skip cells. -/
def cand (A : Args) (r : Fin 65) (j : Fin 2048) : EReal :=
  if r.val = 0 then gG A j else A.cin (ix2 (⟨r.val - 1, by omega⟩ : Fin 64) j)

/-- The normaliser of column `j`. -/
def wsum (A : Args) (j : Fin 2048) : EReal := ∑ r : Fin 65, Ideal.exp (logit A r j)

/-- The new cell state at column `j`. -/
def c1 (A : Args) (j : Fin 2048) : EReal :=
  ∑ r : Fin 65, cand A r j * Ideal.div (Ideal.exp (logit A r j)) (wsum A j)

/-- The new hidden state at column `j`. -/
def h1 (A : Args) (j : Fin 2048) : EReal := gO A j * Ideal.tanh (c1 A j)

/-- The new cell state as a [1, 2048] array. -/
def outC (A : Args) : (⟨2, ![1, 2048]⟩ : Shape).Idx → EReal := fun i => c1 A (i 1)
/-- The new hidden state as a [1, 2048] array. -/
def outH (A : Args) : (⟨2, ![1, 2048]⟩ : Shape).Idx → EReal := fun i => h1 A (i 1)

end Cert.Spec

end
-- ==== Proof.PayloadAt.lean ====
/-
  The kernel body's arithmetic, read at one column of its tile, is the cell of the specification.

  One grid point computes a tile of 256 hidden columns, at column offset o. Its loaded blocks are the whole rows x, h0,
  the whole skip cells c, and the column tiles (offset o, 2048 + o, 4096 + o for the three gates) of the weights and
  biases. At column q of the tile, i.e. hidden column j = o + q:

    the three gate pre-activations are  (Σ_k h0[k]·Whh[k,·] + Σ_k x[k]·Wih[k,·]) + b[·]  at gate columns j, 2048+j, 4096+j;
    the 64 attention logits are  σ((Σ_k x[k]·Aih[k,j] + a[j]) + Σ_k c[r,k]·Ahh[k,j]);
    the 65 stacked logits are [σ(pre_i); α], the 65 stacked candidates [tanh(pre_g); c[·,j]];
    the stores are  c1 = Σ_r cand_r · (exp(logit_r) / Σ_r' exp(logit_r'))  and  h1 = σ(pre_o) · tanh(c1).

  Every step is exact on the extended reals: a matrix product into a zero accumulator is the sum of products, a
  reduction over the 65 stacked rows is the sum over them, and the layout operations only move indices.
-/
import proofs.«140369_j5574867550454_1_alg».proof.Proof.Gen.KernelIdeal.Skeleton
import proofs.«140369_j5574867550454_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ## A matrix product into a zero accumulator, read at an index -/

/-- The row-times-matrix dimension record: [1,2048] × [2048,256] → [1,256]. -/
abbrev dRow := dot_S1x2048_S2048x256_S1x256_1_0_0_1_n_n
/-- The block-times-matrix dimension record: [64,2048] × [2048,256] → [64,256]. -/
abbrev dBlk := dot_S64x2048_S2048x256_S64x256_1_0_0_1_n_n

theorem dRow_lhs0 (i : S1x256.Idx) (c : dRow.contr.Idx) : (dRow.lhsIdx i c 0).val = (i 0).val := by
  unfold DotDims.lhsIdx
  rw [dif_neg (show ¬(0 : Fin S1x2048.rank) ∈ dRow.lhsBatch by decide), dif_pos (show (0 : Fin S1x2048.rank) ∈ dRow.lhsNonContracting by decide)]
  rfl
theorem dRow_rhs1 (i : S1x256.Idx) (c : dRow.contr.Idx) : (dRow.rhsIdx i c 1).val = (i 1).val := by
  unfold DotDims.rhsIdx
  rw [dif_neg (show ¬(1 : Fin S2048x256.rank) ∈ dRow.rhsBatch by decide), dif_pos (show (1 : Fin S2048x256.rank) ∈ dRow.rhsNonContracting by decide)]
  rfl
theorem dBlk_lhs0 (i : S64x256.Idx) (c : dBlk.contr.Idx) : (dBlk.lhsIdx i c 0).val = (i 0).val := by
  unfold DotDims.lhsIdx
  rw [dif_neg (show ¬(0 : Fin S64x2048.rank) ∈ dBlk.lhsBatch by decide), dif_pos (show (0 : Fin S64x2048.rank) ∈ dBlk.lhsNonContracting by decide)]
  rfl
theorem dBlk_rhs1 (i : S64x256.Idx) (c : dBlk.contr.Idx) : (dBlk.rhsIdx i c 1).val = (i 1).val := by
  unfold DotDims.rhsIdx
  rw [dif_neg (show ¬(1 : Fin S2048x256.rank) ∈ dBlk.rhsBatch by decide), dif_pos (show (1 : Fin S2048x256.rank) ∈ dBlk.rhsNonContracting by decide)]
  rfl

/-- A row times a weight tile, accumulated from zero, at column `q`: the sum over the 2048 contracted positions. -/
theorem matmul_row_at (l : FVec Ideal S1x2048 .f32) (r : FVec Ideal S2048x256 .f32) (q : Fin 256) :
    matmul dRow none l r (constant S1x256 .f32 0x00000000#32) (ix2 (0 : Fin 1) q)
      = ∑ k : Fin 2048, l (ix2 (0 : Fin 1) k) * r (ix2 k q) := by
  simp only [matmul]
  rw [Ideal.matmul_constant_zero_apply, ← Equiv.sum_comp (contrEquiv1 dRow 2048 rfl rfl).symm]
  refine Finset.sum_congr rfl fun k _ => ?_
  have hk := contrEquiv1_symm_val dRow 2048 rfl rfl k
  have el : dRow.lhsIdx (ix2 (0 : Fin 1) q) ((contrEquiv1 dRow 2048 rfl rfl).symm k) = ix2 (0 : Fin 1) k :=
    funext fun a => Fin.ext (by
      match a with
      | ⟨0, _⟩ => exact dRow_lhs0 _ _
      | ⟨1, _⟩ => exact (dRow.lhsIdx_val_of_single rfl _ _).trans hk)
  have er : dRow.rhsIdx (ix2 (0 : Fin 1) q) ((contrEquiv1 dRow 2048 rfl rfl).symm k) = ix2 k q :=
    funext fun a => Fin.ext (by
      match a with
      | ⟨0, _⟩ => exact (dRow.rhsIdx_val_of_single rfl _ _).trans hk
      | ⟨1, _⟩ => exact dRow_rhs1 _ _)
  rw [el, er]

/-- The 64 skip cells times a weight tile, accumulated from zero, at `(r, q)`. -/
theorem matmul_blk_at (l : FVec Ideal S64x2048 .f32) (w : FVec Ideal S2048x256 .f32) (r : Fin 64) (q : Fin 256) :
    matmul dBlk none l w (constant S64x256 .f32 0x00000000#32) (ix2 r q)
      = ∑ k : Fin 2048, l (ix2 r k) * w (ix2 k q) := by
  simp only [matmul]
  rw [Ideal.matmul_constant_zero_apply, ← Equiv.sum_comp (contrEquiv1 dBlk 2048 rfl rfl).symm]
  refine Finset.sum_congr rfl fun k _ => ?_
  have hk := contrEquiv1_symm_val dBlk 2048 rfl rfl k
  have el : dBlk.lhsIdx (ix2 r q) ((contrEquiv1 dBlk 2048 rfl rfl).symm k) = ix2 r k :=
    funext fun a => Fin.ext (by
      match a with
      | ⟨0, _⟩ => exact dBlk_lhs0 _ _
      | ⟨1, _⟩ => exact (dBlk.lhsIdx_val_of_single rfl _ _).trans hk)
  have er : dBlk.rhsIdx (ix2 r q) ((contrEquiv1 dBlk 2048 rfl rfl).symm k) = ix2 k q :=
    funext fun a => Fin.ext (by
      match a with
      | ⟨0, _⟩ => exact (dBlk.rhsIdx_val_of_single rfl _ _).trans hk
      | ⟨1, _⟩ => exact dBlk_rhs1 _ _)
  rw [el, er]

/-! ## The layout operations of the body, read at an index -/

/-- The sum over the 65 stacked rows: a reduction over axis 0 of a [65,256] array from a zero accumulator, at column `q`. -/
theorem colsum_at (src : FVec Ideal S65x256 .f32) (q : Fin 256) :
    multiReduction .add [0] S256 src 0x00000000#32 reduces_S65x256_S256 (.inl rfl) rfl (ix1 q)
      = ∑ r : Fin 65, src (ix2 r q) := by
  refine (Ideal.multiReduction_add_single src 0x00000000#32 reduces_S65x256_S256 (.inl rfl) rfl (ix1 q)).trans ?_
  refine Finset.sum_congr rfl fun k _ => congrArg src ?_
  funext a
  match a with
  | ⟨0, _⟩ => rfl
  | ⟨1, _⟩ => rfl

/-- A [1,256] row stacked over a [64,256] block, read in row 0: the row. -/
theorem stack_at_zero (a : FVec Ideal S1x256 .f32) (b : FVec Ideal S64x256 .f32) (r : Fin 65) (q : Fin 256) (hr : r.val = 0) :
    concatenate S65x256 0 [⟨S1x256, a⟩, ⟨S64x256, b⟩] concatenates_S1x256_S64x256_S65x256_d0 (ix2 r q)
      = a (ix2 (0 : Fin 1) q) := by
  refine concatenate_pair_apply_left 0 a b concatenates_S1x256_S64x256_S65x256_d0 (ix2 r q) rfl (ix2 (0 : Fin 1) q) fun bx => ?_
  match bx with
  | ⟨0, _⟩ => exact hr.symm
  | ⟨1, _⟩ => rfl

/-- … and read in row r ≥ 1: the block's row r - 1. -/
theorem stack_at_succ (a : FVec Ideal S1x256 .f32) (b : FVec Ideal S64x256 .f32) (r : Fin 65) (q : Fin 256) (hr : ¬ r.val = 0) :
    concatenate S65x256 0 [⟨S1x256, a⟩, ⟨S64x256, b⟩] concatenates_S1x256_S64x256_S65x256_d0 (ix2 r q)
      = b (ix2 (⟨r.val - 1, by omega⟩ : Fin 64) q) := by
  refine concatenate_pair_apply_right 0 a b concatenates_S1x256_S64x256_S65x256_d0 (ix2 r q) rfl rfl
    (ix2 (⟨r.val - 1, by omega⟩ : Fin 64) q) (fun bx hb => ?_) ?_
  · match bx with
    | ⟨0, _⟩ => exact absurd rfl hb
    | ⟨1, _⟩ => rfl
  · show (r.val - 1) + 1 = r.val
    omega

/-! ## The gates' pre-activations -/

/-- The input gate's pre-activation tile at column `q`. -/
theorem pay3_at (v0 v1 : Vec Ideal S1x2048 .f32) (v4 v6 : Vec Ideal S2048x256 .f32) (v9 : Vec Ideal S1x256 .f32) (q : Fin 256) :
    k0_pay3 v0 v1 v4 v6 v9 (ix2 (0 : Fin 1) q)
      = (∑ k : Fin 2048, v1 (ix2 (0 : Fin 1) k) * v4 (ix2 k q) + ∑ k : Fin 2048, v0 (ix2 (0 : Fin 1) k) * v6 (ix2 k q))
        + v9 (ix2 (0 : Fin 1) q) := by
  unfold k0_pay3
  refine (addf_apply _ _ _).trans ?_
  refine congrArg₂ (· + ·) ((addf_apply _ _ _).trans (congrArg₂ (· + ·) (matmul_row_at v1 v4 q) (matmul_row_at v0 v6 q))) ?_
  rw [shapeCast_self]

/-- The output gate's pre-activation tile at column `q`. -/
theorem pay4_at (v0 v1 : Vec Ideal S1x2048 .f32) (v12 v14 : Vec Ideal S2048x256 .f32) (v17 : Vec Ideal S1x256 .f32) (q : Fin 256) :
    k0_pay4 v0 v1 v12 v14 v17 (ix2 (0 : Fin 1) q)
      = (∑ k : Fin 2048, v1 (ix2 (0 : Fin 1) k) * v12 (ix2 k q) + ∑ k : Fin 2048, v0 (ix2 (0 : Fin 1) k) * v14 (ix2 k q))
        + v17 (ix2 (0 : Fin 1) q) := by
  unfold k0_pay4
  refine (addf_apply _ _ _).trans ?_
  refine congrArg₂ (· + ·) ((addf_apply _ _ _).trans (congrArg₂ (· + ·) (matmul_row_at v1 v12 q) (matmul_row_at v0 v14 q))) ?_
  rw [shapeCast_self]

/-- The candidate's two products at column `q` (its bias is added in the store's payload). -/
theorem pay5_at (v0 v1 : Vec Ideal S1x2048 .f32) (v20 v22 : Vec Ideal S2048x256 .f32) (q : Fin 256) :
    k0_pay5 v0 v1 v20 v22 (ix2 (0 : Fin 1) q)
      = ∑ k : Fin 2048, v1 (ix2 (0 : Fin 1) k) * v20 (ix2 k q) + ∑ k : Fin 2048, v0 (ix2 (0 : Fin 1) k) * v22 (ix2 k q) := by
  unfold k0_pay5
  exact (addf_apply _ _ _).trans (congrArg₂ (· + ·) (matmul_row_at v1 v20 q) (matmul_row_at v0 v22 q))

/-- The candidate's bias tile passes through an identity cast. -/
theorem pay6_eq (v25 : Vec Ideal S1x256 .f32) : k0_pay6 v25 = v25 := by
  unfold k0_pay6
  exact shapeCast_self v25 shapeCasts_S1x256_S1x256

/-! ## The 65 stacked logits and candidates of a column, as the body computes them -/

/-- The body's logit in stacked row `r` at column `q`: the input gate in row 0, the attention gate of skip cell r - 1 below. -/
def klogit (v0 : Vec Ideal S1x2048 .f32) (v2 : Vec Ideal S64x2048 .f32) (v11 : FVec Ideal S1x256 .f32)
    (v31 : Vec Ideal S2048x256 .f32) (v33 : Vec Ideal S1x256 .f32) (v36 : Vec Ideal S2048x256 .f32) (r : Fin 65) (q : Fin 256) : EReal :=
  if r.val = 0 then Ideal.logistic (v11 (ix2 (0 : Fin 1) q))
  else Ideal.logistic ((∑ k : Fin 2048, v0 (ix2 (0 : Fin 1) k) * v31 (ix2 k q) + v33 (ix2 (0 : Fin 1) q))
    + ∑ k : Fin 2048, v2 (ix2 (⟨r.val - 1, by omega⟩ : Fin 64) k) * v36 (ix2 k q))

/-- The body's merged value in stacked row `r` at column `q`: the candidate in row 0, skip cell r - 1 below. -/
def kcand (v3 : Vec Ideal S64x256 .f32) (v24 v26 : FVec Ideal S1x256 .f32) (r : Fin 65) (q : Fin 256) : EReal :=
  if r.val = 0 then Ideal.tanh (v24 (ix2 (0 : Fin 1) q) + v26 (ix2 (0 : Fin 1) q))
  else v3 (ix2 (⟨r.val - 1, by omega⟩ : Fin 64) q)

/-- The stacked logits tile of the body at `(r, q)`. -/
theorem logits_at (v0 : Vec Ideal S1x2048 .f32) (v2 : Vec Ideal S64x2048 .f32) (v11 : FVec Ideal S1x256 .f32)
    (v31 : Vec Ideal S2048x256 .f32) (v33 : Vec Ideal S1x256 .f32) (v36 : Vec Ideal S2048x256 .f32) (r : Fin 65) (q : Fin 256) :
    concatenate S65x256 0
        [⟨S1x256, logistic v11⟩,
         ⟨S64x256, logistic (addf (broadcastTo S64x256 (addf (matmul (φ₁ := .f32) (φ₂ := .f32) dRow none v0 v31 (constant S1x256 .f32 0x00000000#32))
            (shapeCast S1x256 v33 shapeCasts_S1x256_S1x256)) broadcasts_S1x256_S64x256)
            (matmul (φ₁ := .f32) (φ₂ := .f32) dBlk none v2 v36 (constant S64x256 .f32 0x00000000#32)))⟩]
        concatenates_S1x256_S64x256_S65x256_d0 (ix2 r q)
      = klogit v0 v2 v11 v31 v33 v36 r q := by
  unfold klogit
  by_cases hr : r.val = 0
  · rw [if_pos hr]
    exact stack_at_zero _ _ r q hr
  · rw [if_neg hr]
    refine (stack_at_succ _ _ r q hr).trans ?_
    refine congrArg Ideal.logistic ?_
    refine (addf_apply _ _ _).trans ?_
    refine congrArg₂ (· + ·) ?_ (matmul_blk_at v2 v36 _ q)
    refine (broadcastTo_1b_ab_apply _ broadcasts_S1x256_S64x256 _ q).trans ?_
    refine (addf_apply _ _ _).trans ?_
    refine congrArg₂ (· + ·) (matmul_row_at v0 v31 q) ?_
    rw [shapeCast_self]

/-- The stacked candidates tile of the body at `(r, q)`. -/
theorem cands_at (v3 : Vec Ideal S64x256 .f32) (v24 v26 : FVec Ideal S1x256 .f32) (r : Fin 65) (q : Fin 256) :
    concatenate S65x256 0 [⟨S1x256, tanh (addf v24 v26)⟩, ⟨S64x256, v3⟩] concatenates_S1x256_S64x256_S65x256_d0 (ix2 r q)
      = kcand v3 v24 v26 r q := by
  unfold kcand
  by_cases hr : r.val = 0
  · rw [if_pos hr]
    exact stack_at_zero _ _ r q hr
  · rw [if_neg hr]
    exact stack_at_succ _ _ r q hr

/-! ## The two stores' payloads at a column, over the body's own logits and candidates -/

/-- The new cell state's tile at column `q`: the candidates weighted by the normalised exponentials of the logits. -/
theorem pay1_at (v0 : Vec Ideal S1x2048 .f32) (v2 : Vec Ideal S64x2048 .f32) (v3 : Vec Ideal S64x256 .f32)
    (v11 v24 v26 : FVec Ideal S1x256 .f32) (v31 : Vec Ideal S2048x256 .f32) (v33 : Vec Ideal S1x256 .f32)
    (v36 : Vec Ideal S2048x256 .f32) (q : Fin 256) :
    k0_pay1 v0 v2 v3 v11 v24 v26 v31 v33 v36 (ix2 (0 : Fin 1) q)
      = ∑ r : Fin 65, kcand v3 v24 v26 r q
          * Ideal.div (Ideal.exp (klogit v0 v2 v11 v31 v33 v36 r q)) (∑ r' : Fin 65, Ideal.exp (klogit v0 v2 v11 v31 v33 v36 r' q)) := by
  unfold k0_pay1
  refine (shapeCast_a_1a_apply _ shapeCasts_S256_S1x256 0 q).trans ?_
  refine (colsum_at _ q).trans ?_
  refine Finset.sum_congr rfl fun r _ => ?_
  refine (mulf_apply _ _ _).trans ?_
  refine congrArg₂ (· * ·) (cands_at v3 v24 v26 r q) ?_
  refine (divf_apply _ _ _).trans ?_
  refine congrArg₂ Ideal.div (congrArg Ideal.exp (logits_at v0 v2 v11 v31 v33 v36 r q)) ?_
  refine (broadcastTo_1b_ab_apply _ broadcasts_S1x256_S65x256 r q).trans ?_
  refine (shapeCast_a_1a_apply _ shapeCasts_S256_S1x256 0 q).trans ?_
  refine (colsum_at _ q).trans ?_
  exact Finset.sum_congr rfl fun r' _ => congrArg Ideal.exp (logits_at v0 v2 v11 v31 v33 v36 r' q)

/-- The new hidden state's tile at column `q`: the output gate times tanh of the new cell state. -/
theorem pay2_at (v0 : Vec Ideal S1x2048 .f32) (v2 : Vec Ideal S64x2048 .f32) (v3 : Vec Ideal S64x256 .f32)
    (v11 v19 v24 v26 : FVec Ideal S1x256 .f32) (v31 : Vec Ideal S2048x256 .f32) (v33 : Vec Ideal S1x256 .f32)
    (v36 : Vec Ideal S2048x256 .f32) (q : Fin 256) :
    k0_pay2 v0 v2 v3 v11 v19 v24 v26 v31 v33 v36 (ix2 (0 : Fin 1) q)
      = Ideal.logistic (v19 (ix2 (0 : Fin 1) q)) * Ideal.tanh (k0_pay1 v0 v2 v3 v11 v24 v26 v31 v33 v36 (ix2 (0 : Fin 1) q)) := by
  unfold k0_pay2
  exact mulf_apply _ _ _

/-! ## The body's values are the specification's, when the blocks are the arrays' tiles at column offset `o` -/

/-- A gate's pre-activation at the gate column `c` that column `q` of the weight and bias tiles holds. -/
theorem pre_at (A : Cert.Spec.Args) (v0 v1 : Vec Ideal S1x2048 .f32) (wh wi : Vec Ideal S2048x256 .f32) (bb : Vec Ideal S1x256 .f32)
    (hx : ∀ k : Fin 2048, v0 (ix2 (0 : Fin 1) k) = A.x (ix2 (0 : Fin 1) k))
    (hh : ∀ k : Fin 2048, v1 (ix2 (0 : Fin 1) k) = A.h0 (ix2 (0 : Fin 1) k))
    (q : Fin 256) (c : Fin 6144)
    (hwh : ∀ k : Fin 2048, wh (ix2 k q) = A.whh (ix2 k c))
    (hwi : ∀ k : Fin 2048, wi (ix2 k q) = A.wih (ix2 k c))
    (hb : bb (ix2 (0 : Fin 1) q) = A.b (ix1 c)) :
    (∑ k : Fin 2048, v1 (ix2 (0 : Fin 1) k) * wh (ix2 k q) + ∑ k : Fin 2048, v0 (ix2 (0 : Fin 1) k) * wi (ix2 k q))
        + bb (ix2 (0 : Fin 1) q)
      = Cert.Spec.pre A c := by
  unfold Cert.Spec.pre
  refine congrArg₂ (· + ·) (congrArg₂ (· + ·) (Finset.sum_congr rfl fun k _ => ?_) (Finset.sum_congr rfl fun k _ => ?_)) hb
  · rw [hh k, hwh k]
  · rw [hx k, hwi k]

/-- The body's 65 logits of column `q` are the specification's at hidden column `o + q`. -/
theorem klogit_eq (A : Cert.Spec.Args) (o : ℕ) (ho : o + 256 ≤ 2048)
    (v0 v1 : Vec Ideal S1x2048 .f32) (v2 : Vec Ideal S64x2048 .f32) (v4 v6 v31 v36 : Vec Ideal S2048x256 .f32)
    (v9 v33 : Vec Ideal S1x256 .f32)
    (hx : ∀ k : Fin 2048, v0 (ix2 (0 : Fin 1) k) = A.x (ix2 (0 : Fin 1) k))
    (hh : ∀ k : Fin 2048, v1 (ix2 (0 : Fin 1) k) = A.h0 (ix2 (0 : Fin 1) k))
    (hc : ∀ (r : Fin 64) (k : Fin 2048), v2 (ix2 r k) = A.cin (ix2 r k))
    (hwhhI : ∀ (k : Fin 2048) (q : Fin 256), v4 (ix2 k q) = A.whh (ix2 k (⟨o + q.val, by omega⟩ : Fin 6144)))
    (hwihI : ∀ (k : Fin 2048) (q : Fin 256), v6 (ix2 k q) = A.wih (ix2 k (⟨o + q.val, by omega⟩ : Fin 6144)))
    (hbI : ∀ q : Fin 256, v9 (ix2 (0 : Fin 1) q) = A.b (ix1 (⟨o + q.val, by omega⟩ : Fin 6144)))
    (hawih : ∀ (k : Fin 2048) (q : Fin 256), v31 (ix2 k q) = A.awih (ix2 k (⟨o + q.val, by omega⟩ : Fin 2048)))
    (hawhh : ∀ (k : Fin 2048) (q : Fin 256), v36 (ix2 k q) = A.awhh (ix2 k (⟨o + q.val, by omega⟩ : Fin 2048)))
    (hab : ∀ q : Fin 256, v33 (ix2 (0 : Fin 1) q) = A.ab (ix1 (⟨o + q.val, by omega⟩ : Fin 2048)))
    (r : Fin 65) (q : Fin 256) :
    klogit v0 v2 (k0_pay3 v0 v1 v4 v6 v9) v31 v33 v36 r q = Cert.Spec.logit A r ⟨o + q.val, by omega⟩ := by
  unfold klogit Cert.Spec.logit
  by_cases hr : r.val = 0
  · rw [if_pos hr, if_pos hr]
    unfold Cert.Spec.gI
    refine congrArg Ideal.logistic ?_
    exact (pay3_at v0 v1 v4 v6 v9 q).trans
      (pre_at A v0 v1 v4 v6 v9 hx hh q ⟨o + q.val, by omega⟩ (fun k => hwhhI k q) (fun k => hwihI k q) (hbI q))
  · rw [if_neg hr, if_neg hr]
    unfold Cert.Spec.alpha
    refine congrArg Ideal.logistic ?_
    refine congrArg₂ (· + ·) (congrArg₂ (· + ·) (Finset.sum_congr rfl fun k _ => ?_) (hab q)) (Finset.sum_congr rfl fun k _ => ?_)
    · rw [hx k, hawih k q]
    · rw [hc _ k, hawhh k q]

/-- The body's 65 merged values of column `q` are the specification's at hidden column `o + q`. -/
theorem kcand_eq (A : Cert.Spec.Args) (o : ℕ) (ho : o + 256 ≤ 2048)
    (v0 v1 : Vec Ideal S1x2048 .f32) (v3 : Vec Ideal S64x256 .f32) (v20 v22 : Vec Ideal S2048x256 .f32) (v25 : Vec Ideal S1x256 .f32)
    (hx : ∀ k : Fin 2048, v0 (ix2 (0 : Fin 1) k) = A.x (ix2 (0 : Fin 1) k))
    (hh : ∀ k : Fin 2048, v1 (ix2 (0 : Fin 1) k) = A.h0 (ix2 (0 : Fin 1) k))
    (hct : ∀ (r : Fin 64) (q : Fin 256), v3 (ix2 r q) = A.cin (ix2 r (⟨o + q.val, by omega⟩ : Fin 2048)))
    (hwhhG : ∀ (k : Fin 2048) (q : Fin 256), v20 (ix2 k q) = A.whh (ix2 k (⟨4096 + (o + q.val), by omega⟩ : Fin 6144)))
    (hwihG : ∀ (k : Fin 2048) (q : Fin 256), v22 (ix2 k q) = A.wih (ix2 k (⟨4096 + (o + q.val), by omega⟩ : Fin 6144)))
    (hbG : ∀ q : Fin 256, v25 (ix2 (0 : Fin 1) q) = A.b (ix1 (⟨4096 + (o + q.val), by omega⟩ : Fin 6144)))
    (r : Fin 65) (q : Fin 256) :
    kcand v3 (k0_pay5 v0 v1 v20 v22) (k0_pay6 v25) r q = Cert.Spec.cand A r ⟨o + q.val, by omega⟩ := by
  unfold kcand Cert.Spec.cand
  by_cases hr : r.val = 0
  · rw [if_pos hr, if_pos hr]
    unfold Cert.Spec.gG
    refine congrArg Ideal.tanh ?_
    rw [pay6_eq, pay5_at]
    exact pre_at A v0 v1 v20 v22 v25 hx hh q ⟨4096 + (o + q.val), by omega⟩ (fun k => hwhhG k q) (fun k => hwihG k q) (hbG q)
  · rw [if_neg hr, if_neg hr]
    exact hct _ q

/-- THE NEW CELL STATE: the tile the body stores, at column `q`, is the specification's c1 at hidden column `o + q`. -/
theorem c1_tile_at (A : Cert.Spec.Args) (o : ℕ) (ho : o + 256 ≤ 2048)
    (v0 v1 : Vec Ideal S1x2048 .f32) (v2 : Vec Ideal S64x2048 .f32) (v3 : Vec Ideal S64x256 .f32)
    (v4 v6 v12 v14 v20 v22 v31 v36 : Vec Ideal S2048x256 .f32) (v9 v17 v25 v33 : Vec Ideal S1x256 .f32)
    (hx : ∀ k : Fin 2048, v0 (ix2 (0 : Fin 1) k) = A.x (ix2 (0 : Fin 1) k))
    (hh : ∀ k : Fin 2048, v1 (ix2 (0 : Fin 1) k) = A.h0 (ix2 (0 : Fin 1) k))
    (hc : ∀ (r : Fin 64) (k : Fin 2048), v2 (ix2 r k) = A.cin (ix2 r k))
    (hct : ∀ (r : Fin 64) (q : Fin 256), v3 (ix2 r q) = A.cin (ix2 r (⟨o + q.val, by omega⟩ : Fin 2048)))
    (hwhhI : ∀ (k : Fin 2048) (q : Fin 256), v4 (ix2 k q) = A.whh (ix2 k (⟨o + q.val, by omega⟩ : Fin 6144)))
    (hwhhO : ∀ (k : Fin 2048) (q : Fin 256), v12 (ix2 k q) = A.whh (ix2 k (⟨2048 + (o + q.val), by omega⟩ : Fin 6144)))
    (hwhhG : ∀ (k : Fin 2048) (q : Fin 256), v20 (ix2 k q) = A.whh (ix2 k (⟨4096 + (o + q.val), by omega⟩ : Fin 6144)))
    (hwihI : ∀ (k : Fin 2048) (q : Fin 256), v6 (ix2 k q) = A.wih (ix2 k (⟨o + q.val, by omega⟩ : Fin 6144)))
    (hwihO : ∀ (k : Fin 2048) (q : Fin 256), v14 (ix2 k q) = A.wih (ix2 k (⟨2048 + (o + q.val), by omega⟩ : Fin 6144)))
    (hwihG : ∀ (k : Fin 2048) (q : Fin 256), v22 (ix2 k q) = A.wih (ix2 k (⟨4096 + (o + q.val), by omega⟩ : Fin 6144)))
    (hbI : ∀ q : Fin 256, v9 (ix2 (0 : Fin 1) q) = A.b (ix1 (⟨o + q.val, by omega⟩ : Fin 6144)))
    (hbO : ∀ q : Fin 256, v17 (ix2 (0 : Fin 1) q) = A.b (ix1 (⟨2048 + (o + q.val), by omega⟩ : Fin 6144)))
    (hbG : ∀ q : Fin 256, v25 (ix2 (0 : Fin 1) q) = A.b (ix1 (⟨4096 + (o + q.val), by omega⟩ : Fin 6144)))
    (hawih : ∀ (k : Fin 2048) (q : Fin 256), v31 (ix2 k q) = A.awih (ix2 k (⟨o + q.val, by omega⟩ : Fin 2048)))
    (hawhh : ∀ (k : Fin 2048) (q : Fin 256), v36 (ix2 k q) = A.awhh (ix2 k (⟨o + q.val, by omega⟩ : Fin 2048)))
    (hab : ∀ q : Fin 256, v33 (ix2 (0 : Fin 1) q) = A.ab (ix1 (⟨o + q.val, by omega⟩ : Fin 2048)))
    (q : Fin 256) :
    k0_pay1 v0 v2 v3 (k0_pay3 v0 v1 v4 v6 v9) (k0_pay5 v0 v1 v20 v22) (k0_pay6 v25) v31 v33 v36 (ix2 (0 : Fin 1) q)
      = Cert.Spec.c1 A ⟨o + q.val, by omega⟩ := by
  refine (pay1_at v0 v2 v3 _ _ _ v31 v33 v36 q).trans ?_
  unfold Cert.Spec.c1 Cert.Spec.wsum
  have hl : ∀ r : Fin 65, klogit v0 v2 (k0_pay3 v0 v1 v4 v6 v9) v31 v33 v36 r q = Cert.Spec.logit A r ⟨o + q.val, by omega⟩ :=
    fun r => klogit_eq A o ho v0 v1 v2 v4 v6 v31 v36 v9 v33 hx hh hc hwhhI hwihI hbI hawih hawhh hab r q
  refine Finset.sum_congr rfl fun r _ => ?_
  refine congrArg₂ (· * ·) (kcand_eq A o ho v0 v1 v3 v20 v22 v25 hx hh hct hwhhG hwihG hbG r q) ?_
  exact congrArg₂ Ideal.div (congrArg Ideal.exp (hl r)) (Finset.sum_congr rfl fun r' _ => congrArg Ideal.exp (hl r'))

/-- THE NEW HIDDEN STATE: the tile the body stores, at column `q`, is the specification's h1 at hidden column `o + q`. -/
theorem h1_tile_at (A : Cert.Spec.Args) (o : ℕ) (ho : o + 256 ≤ 2048)
    (v0 v1 : Vec Ideal S1x2048 .f32) (v2 : Vec Ideal S64x2048 .f32) (v3 : Vec Ideal S64x256 .f32)
    (v4 v6 v12 v14 v20 v22 v31 v36 : Vec Ideal S2048x256 .f32) (v9 v17 v25 v33 : Vec Ideal S1x256 .f32)
    (hx : ∀ k : Fin 2048, v0 (ix2 (0 : Fin 1) k) = A.x (ix2 (0 : Fin 1) k))
    (hh : ∀ k : Fin 2048, v1 (ix2 (0 : Fin 1) k) = A.h0 (ix2 (0 : Fin 1) k))
    (hc : ∀ (r : Fin 64) (k : Fin 2048), v2 (ix2 r k) = A.cin (ix2 r k))
    (hct : ∀ (r : Fin 64) (q : Fin 256), v3 (ix2 r q) = A.cin (ix2 r (⟨o + q.val, by omega⟩ : Fin 2048)))
    (hwhhI : ∀ (k : Fin 2048) (q : Fin 256), v4 (ix2 k q) = A.whh (ix2 k (⟨o + q.val, by omega⟩ : Fin 6144)))
    (hwhhO : ∀ (k : Fin 2048) (q : Fin 256), v12 (ix2 k q) = A.whh (ix2 k (⟨2048 + (o + q.val), by omega⟩ : Fin 6144)))
    (hwhhG : ∀ (k : Fin 2048) (q : Fin 256), v20 (ix2 k q) = A.whh (ix2 k (⟨4096 + (o + q.val), by omega⟩ : Fin 6144)))
    (hwihI : ∀ (k : Fin 2048) (q : Fin 256), v6 (ix2 k q) = A.wih (ix2 k (⟨o + q.val, by omega⟩ : Fin 6144)))
    (hwihO : ∀ (k : Fin 2048) (q : Fin 256), v14 (ix2 k q) = A.wih (ix2 k (⟨2048 + (o + q.val), by omega⟩ : Fin 6144)))
    (hwihG : ∀ (k : Fin 2048) (q : Fin 256), v22 (ix2 k q) = A.wih (ix2 k (⟨4096 + (o + q.val), by omega⟩ : Fin 6144)))
    (hbI : ∀ q : Fin 256, v9 (ix2 (0 : Fin 1) q) = A.b (ix1 (⟨o + q.val, by omega⟩ : Fin 6144)))
    (hbO : ∀ q : Fin 256, v17 (ix2 (0 : Fin 1) q) = A.b (ix1 (⟨2048 + (o + q.val), by omega⟩ : Fin 6144)))
    (hbG : ∀ q : Fin 256, v25 (ix2 (0 : Fin 1) q) = A.b (ix1 (⟨4096 + (o + q.val), by omega⟩ : Fin 6144)))
    (hawih : ∀ (k : Fin 2048) (q : Fin 256), v31 (ix2 k q) = A.awih (ix2 k (⟨o + q.val, by omega⟩ : Fin 2048)))
    (hawhh : ∀ (k : Fin 2048) (q : Fin 256), v36 (ix2 k q) = A.awhh (ix2 k (⟨o + q.val, by omega⟩ : Fin 2048)))
    (hab : ∀ q : Fin 256, v33 (ix2 (0 : Fin 1) q) = A.ab (ix1 (⟨o + q.val, by omega⟩ : Fin 2048)))
    (q : Fin 256) :
    k0_pay2 v0 v2 v3 (k0_pay3 v0 v1 v4 v6 v9) (k0_pay4 v0 v1 v12 v14 v17) (k0_pay5 v0 v1 v20 v22) (k0_pay6 v25) v31 v33 v36
        (ix2 (0 : Fin 1) q)
      = Cert.Spec.h1 A ⟨o + q.val, by omega⟩ := by
  refine (pay2_at v0 v2 v3 _ _ _ _ v31 v33 v36 q).trans ?_
  unfold Cert.Spec.h1 Cert.Spec.gO
  refine congrArg₂ (· * ·) (congrArg Ideal.logistic ?_) (congrArg Ideal.tanh ?_)
  · exact (pay4_at v0 v1 v12 v14 v17 q).trans
      (pre_at A v0 v1 v12 v14 v17 hx hh q ⟨2048 + (o + q.val), by omega⟩ (fun k => hwhhO k q) (fun k => hwihO k q) (hbO q))
  · exact c1_tile_at A o ho v0 v1 v2 v3 v4 v6 v12 v14 v20 v22 v31 v36 v9 v17 v25 v33
      hx hh hc hct hwhhI hwhhO hwhhG hwihI hwihO hwihG hbI hbO hbG hawih hawhh hab q

end Cert.KernelIdeal.PayloadAt

end
-- ==== Proof.KIValue.lean ====
/-
  From the blocks to the whole arrays, on the extended reals.

  The pipeline runs the body at 8 grid points; point t stages the whole rows x, h0 and the whole skip cells, and column
  tile t (256 columns wide) of the skip cells, of the two attention weight matrices and of the attention bias row; of
  each gate weight matrix and of the gate bias row it stages three column tiles, t, 8 + t and 16 + t, one per gate.
  Each staged block, read at coordinates, is the argument array at the block's offset plus the coordinate (the two
  bias rows are the host's reshapes of the bias vectors, so a row's entry is the vector's). With the blocks so tied to
  the arrays, what point t writes back to each result is columns 256 t … 256 t + 255 of the specification's row, and
  the 8 points' column ranges fill the 2048 columns: each result array ends holding the specification's row.
-/
import proofs.«140369_j5574867550454_1_alg».proof.Proof.KIData
import proofs.«140369_j5574867550454_1_alg».proof.Proof.PayloadAt
import proofs.«140369_j5574867550454_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand.ValueLeg

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The argument arrays of core `c` at launch, as the specification takes them. -/
def args (c : Dev nD) : Cert.Spec.Args where
  x := m ((c : Thread nD τ).loc main_arg0)
  cin := m ((c : Thread nD τ).loc main_arg1)
  h0 := m ((c : Thread nD τ).loc main_arg2)
  wih := m ((c : Thread nD τ).loc main_arg4)
  whh := m ((c : Thread nD τ).loc main_arg5)
  awih := m ((c : Thread nD τ).loc main_arg6)
  awhh := m ((c : Thread nD τ).loc main_arg7)
  b := m ((c : Thread nD τ).loc main_arg8)
  ab := m ((c : Thread nD τ).loc main_arg9)

/-! ## The grid and the windows' block indices, decided once over the 8 points -/

theorem point_lt (t : Fin cfg0.N) : t.val < 8 := lt_of_lt_of_eq t.isLt N_0

/-! Window w's block index at point t: (0, 0) for the three whole-array windows; (0, t) for the column tiles of the skip
    cells, the attention weights, the attention bias row and the two results; (0, t), (0, 8 + t), (0, 16 + t) for the three
    gates' column tiles of each gate weight matrix and of the gate bias row. -/
theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = t.val :=
  (by decide +kernel : ∀ t : Fin grid0.N, _)
theorem idx0_4 : ∀ t : Fin cfg0.N, win0_4.index t (0 : Fin 2) = 0 ∧ win0_4.index t (1 : Fin 2) = t.val :=
  (by decide +kernel : ∀ t : Fin grid0.N, _)
theorem idx0_5 : ∀ t : Fin cfg0.N, win0_5.index t (0 : Fin 2) = 0 ∧ win0_5.index t (1 : Fin 2) = 8 + t.val :=
  (by decide +kernel : ∀ t : Fin grid0.N, _)
theorem idx0_6 : ∀ t : Fin cfg0.N, win0_6.index t (0 : Fin 2) = 0 ∧ win0_6.index t (1 : Fin 2) = 16 + t.val :=
  (by decide +kernel : ∀ t : Fin grid0.N, _)
theorem idx0_7 : ∀ t : Fin cfg0.N, win0_7.index t (0 : Fin 2) = 0 ∧ win0_7.index t (1 : Fin 2) = t.val :=
  (by decide +kernel : ∀ t : Fin grid0.N, _)
theorem idx0_8 : ∀ t : Fin cfg0.N, win0_8.index t (0 : Fin 2) = 0 ∧ win0_8.index t (1 : Fin 2) = 8 + t.val :=
  (by decide +kernel : ∀ t : Fin grid0.N, _)
theorem idx0_9 : ∀ t : Fin cfg0.N, win0_9.index t (0 : Fin 2) = 0 ∧ win0_9.index t (1 : Fin 2) = 16 + t.val :=
  (by decide +kernel : ∀ t : Fin grid0.N, _)
theorem idx0_10 : ∀ t : Fin cfg0.N, win0_10.index t (0 : Fin 2) = 0 ∧ win0_10.index t (1 : Fin 2) = t.val :=
  (by decide +kernel : ∀ t : Fin grid0.N, _)
theorem idx0_11 : ∀ t : Fin cfg0.N, win0_11.index t (0 : Fin 2) = 0 ∧ win0_11.index t (1 : Fin 2) = t.val :=
  (by decide +kernel : ∀ t : Fin grid0.N, _)
theorem idx0_12 : ∀ t : Fin cfg0.N, win0_12.index t (0 : Fin 2) = 0 ∧ win0_12.index t (1 : Fin 2) = t.val :=
  (by decide +kernel : ∀ t : Fin grid0.N, _)
theorem idx0_13 : ∀ t : Fin cfg0.N, win0_13.index t (0 : Fin 2) = 0 ∧ win0_13.index t (1 : Fin 2) = 8 + t.val :=
  (by decide +kernel : ∀ t : Fin grid0.N, _)
theorem idx0_14 : ∀ t : Fin cfg0.N, win0_14.index t (0 : Fin 2) = 0 ∧ win0_14.index t (1 : Fin 2) = 16 + t.val :=
  (by decide +kernel : ∀ t : Fin grid0.N, _)
theorem idx0_15 : ∀ t : Fin cfg0.N, win0_15.index t (0 : Fin 2) = 0 ∧ win0_15.index t (1 : Fin 2) = t.val :=
  (by decide +kernel : ∀ t : Fin grid0.N, _)
theorem idx0_16 : ∀ t : Fin cfg0.N, win0_16.index t (0 : Fin 2) = 0 ∧ win0_16.index t (1 : Fin 2) = t.val :=
  (by decide +kernel : ∀ t : Fin grid0.N, _)
theorem idx0_17 : ∀ t : Fin cfg0.N, win0_17.index t (0 : Fin 2) = 0 ∧ win0_17.index t (1 : Fin 2) = t.val :=
  (by decide +kernel : ∀ t : Fin grid0.N, _)

/-! ## The two bias rows as the region finds them: the host's reshapes of the bias vectors -/

theorem V_main_v0 (c : Dev nD) :
    (V m c main_v0 : S1x6144.Idx → EReal) = shapeCast S1x6144 (m ((c : Thread nD τ).loc main_arg8)) shapeCasts_S6144_S1x6144 := by
  dsimp only [V, hostOps0]; after_results; rfl

theorem V_main_v1 (c : Dev nD) :
    (V m c main_v1 : S1x2048.Idx → EReal) = shapeCast S1x2048 (m ((c : Thread nD τ).loc main_arg9)) shapeCasts_S2048_S1x2048 := by
  dsimp only [V, hostOps0]; after_results; rfl

/-! ## Each staged block, read at coordinates, is the argument array there -/

theorem blk0_at (c : Dev nD) (t : Fin cfg0.N) (k : Fin 2048) :
    (iblk m c 0 t : Vec Ideal S1x2048 .f32) (ix2 (0 : Fin 1) k) = m ((c : Thread nD τ).loc main_arg0) (ix2 (0 : Fin 1) k) := by
  obtain ⟨e0, e1⟩ := idx0_0 t
  show V m c main_arg0 (((cfg0.win 0).blk t).view.emb (ix2 (0 : Fin 1) k)) = _
  rw [V_main_arg0]
  refine congrArg (m ((c : Thread nD τ).loc main_arg0)) (funext fun a => Fin.ext ?_)
  match a with
  | ⟨0, _⟩ => show win0_0.index t (0 : Fin 2) * 1 + 1 * 0 = 0; omega
  | ⟨1, _⟩ => show win0_0.index t (1 : Fin 2) * 2048 + 1 * k.val = k.val; omega

theorem blk1_at (c : Dev nD) (t : Fin cfg0.N) (k : Fin 2048) :
    (iblk m c 1 t : Vec Ideal S1x2048 .f32) (ix2 (0 : Fin 1) k) = m ((c : Thread nD τ).loc main_arg2) (ix2 (0 : Fin 1) k) := by
  obtain ⟨e0, e1⟩ := idx0_1 t
  show V m c main_arg2 (((cfg0.win 1).blk t).view.emb (ix2 (0 : Fin 1) k)) = _
  rw [V_main_arg2]
  refine congrArg (m ((c : Thread nD τ).loc main_arg2)) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

theorem blk2_at (c : Dev nD) (t : Fin cfg0.N) (r : Fin 64) (k : Fin 2048) :
    (iblk m c 2 t : Vec Ideal S64x2048 .f32) (ix2 r k) = m ((c : Thread nD τ).loc main_arg1) (ix2 r k) := by
  obtain ⟨e0, e1⟩ := idx0_2 t
  show V m c main_arg1 (((cfg0.win 2).blk t).view.emb (ix2 r k)) = _
  rw [V_main_arg1]
  refine congrArg (m ((c : Thread nD τ).loc main_arg1)) (funext fun a => Fin.ext ?_)
  match a with
  | ⟨0, _⟩ => show win0_2.index t (0 : Fin 2) * 64 + 1 * r.val = r.val; omega
  | ⟨1, _⟩ => show win0_2.index t (1 : Fin 2) * 2048 + 1 * k.val = k.val; omega

theorem blk3_at (c : Dev nD) (t : Fin cfg0.N) (r : Fin 64) (q : Fin 256) :
    (iblk m c 3 t : Vec Ideal S64x256 .f32) (ix2 r q)
      = m ((c : Thread nD τ).loc main_arg1) (ix2 r (⟨256 * t.val + q.val, by have := point_lt t; omega⟩ : Fin 2048)) := by
  obtain ⟨e0, e1⟩ := idx0_3 t
  show V m c main_arg1 (((cfg0.win 3).blk t).view.emb (ix2 r q)) = _
  rw [V_main_arg1]
  refine congrArg (m ((c : Thread nD τ).loc main_arg1)) (funext fun a => Fin.ext ?_)
  match a with
  | ⟨0, _⟩ => show win0_3.index t (0 : Fin 2) * 64 + 1 * r.val = r.val; omega
  | ⟨1, _⟩ => show win0_3.index t (1 : Fin 2) * 256 + 1 * q.val = 256 * t.val + q.val; omega

theorem blk4_at (c : Dev nD) (t : Fin cfg0.N) (k : Fin 2048) (q : Fin 256) :
    (iblk m c 4 t : Vec Ideal S2048x256 .f32) (ix2 k q)
      = m ((c : Thread nD τ).loc main_arg4) (ix2 k (⟨256 * t.val + q.val, by have := point_lt t; omega⟩ : Fin 6144)) := by
  obtain ⟨e0, e1⟩ := idx0_4 t
  show V m c main_arg4 (((cfg0.win 4).blk t).view.emb (ix2 k q)) = _
  rw [V_main_arg4]
  refine congrArg (m ((c : Thread nD τ).loc main_arg4)) (funext fun a => Fin.ext ?_)
  match a with
  | ⟨0, _⟩ => show win0_4.index t (0 : Fin 2) * 2048 + 1 * k.val = k.val; omega
  | ⟨1, _⟩ => show win0_4.index t (1 : Fin 2) * 256 + 1 * q.val = 256 * t.val + q.val; omega

theorem blk5_at (c : Dev nD) (t : Fin cfg0.N) (k : Fin 2048) (q : Fin 256) :
    (iblk m c 5 t : Vec Ideal S2048x256 .f32) (ix2 k q)
      = m ((c : Thread nD τ).loc main_arg4) (ix2 k (⟨2048 + (256 * t.val + q.val), by have := point_lt t; omega⟩ : Fin 6144)) := by
  obtain ⟨e0, e1⟩ := idx0_5 t
  show V m c main_arg4 (((cfg0.win 5).blk t).view.emb (ix2 k q)) = _
  rw [V_main_arg4]
  refine congrArg (m ((c : Thread nD τ).loc main_arg4)) (funext fun a => Fin.ext ?_)
  match a with
  | ⟨0, _⟩ => show win0_5.index t (0 : Fin 2) * 2048 + 1 * k.val = k.val; omega
  | ⟨1, _⟩ => show win0_5.index t (1 : Fin 2) * 256 + 1 * q.val = 2048 + (256 * t.val + q.val); omega

theorem blk6_at (c : Dev nD) (t : Fin cfg0.N) (k : Fin 2048) (q : Fin 256) :
    (iblk m c 6 t : Vec Ideal S2048x256 .f32) (ix2 k q)
      = m ((c : Thread nD τ).loc main_arg4) (ix2 k (⟨4096 + (256 * t.val + q.val), by have := point_lt t; omega⟩ : Fin 6144)) := by
  obtain ⟨e0, e1⟩ := idx0_6 t
  show V m c main_arg4 (((cfg0.win 6).blk t).view.emb (ix2 k q)) = _
  rw [V_main_arg4]
  refine congrArg (m ((c : Thread nD τ).loc main_arg4)) (funext fun a => Fin.ext ?_)
  match a with
  | ⟨0, _⟩ => show win0_6.index t (0 : Fin 2) * 2048 + 1 * k.val = k.val; omega
  | ⟨1, _⟩ => show win0_6.index t (1 : Fin 2) * 256 + 1 * q.val = 4096 + (256 * t.val + q.val); omega

theorem blk7_at (c : Dev nD) (t : Fin cfg0.N) (k : Fin 2048) (q : Fin 256) :
    (iblk m c 7 t : Vec Ideal S2048x256 .f32) (ix2 k q)
      = m ((c : Thread nD τ).loc main_arg5) (ix2 k (⟨256 * t.val + q.val, by have := point_lt t; omega⟩ : Fin 6144)) := by
  obtain ⟨e0, e1⟩ := idx0_7 t
  show V m c main_arg5 (((cfg0.win 7).blk t).view.emb (ix2 k q)) = _
  rw [V_main_arg5]
  refine congrArg (m ((c : Thread nD τ).loc main_arg5)) (funext fun a => Fin.ext ?_)
  match a with
  | ⟨0, _⟩ => show win0_7.index t (0 : Fin 2) * 2048 + 1 * k.val = k.val; omega
  | ⟨1, _⟩ => show win0_7.index t (1 : Fin 2) * 256 + 1 * q.val = 256 * t.val + q.val; omega

theorem blk8_at (c : Dev nD) (t : Fin cfg0.N) (k : Fin 2048) (q : Fin 256) :
    (iblk m c 8 t : Vec Ideal S2048x256 .f32) (ix2 k q)
      = m ((c : Thread nD τ).loc main_arg5) (ix2 k (⟨2048 + (256 * t.val + q.val), by have := point_lt t; omega⟩ : Fin 6144)) := by
  obtain ⟨e0, e1⟩ := idx0_8 t
  show V m c main_arg5 (((cfg0.win 8).blk t).view.emb (ix2 k q)) = _
  rw [V_main_arg5]
  refine congrArg (m ((c : Thread nD τ).loc main_arg5)) (funext fun a => Fin.ext ?_)
  match a with
  | ⟨0, _⟩ => show win0_8.index t (0 : Fin 2) * 2048 + 1 * k.val = k.val; omega
  | ⟨1, _⟩ => show win0_8.index t (1 : Fin 2) * 256 + 1 * q.val = 2048 + (256 * t.val + q.val); omega

theorem blk9_at (c : Dev nD) (t : Fin cfg0.N) (k : Fin 2048) (q : Fin 256) :
    (iblk m c 9 t : Vec Ideal S2048x256 .f32) (ix2 k q)
      = m ((c : Thread nD τ).loc main_arg5) (ix2 k (⟨4096 + (256 * t.val + q.val), by have := point_lt t; omega⟩ : Fin 6144)) := by
  obtain ⟨e0, e1⟩ := idx0_9 t
  show V m c main_arg5 (((cfg0.win 9).blk t).view.emb (ix2 k q)) = _
  rw [V_main_arg5]
  refine congrArg (m ((c : Thread nD τ).loc main_arg5)) (funext fun a => Fin.ext ?_)
  match a with
  | ⟨0, _⟩ => show win0_9.index t (0 : Fin 2) * 2048 + 1 * k.val = k.val; omega
  | ⟨1, _⟩ => show win0_9.index t (1 : Fin 2) * 256 + 1 * q.val = 4096 + (256 * t.val + q.val); omega

theorem blk10_at (c : Dev nD) (t : Fin cfg0.N) (k : Fin 2048) (q : Fin 256) :
    (iblk m c 10 t : Vec Ideal S2048x256 .f32) (ix2 k q)
      = m ((c : Thread nD τ).loc main_arg6) (ix2 k (⟨256 * t.val + q.val, by have := point_lt t; omega⟩ : Fin 2048)) := by
  obtain ⟨e0, e1⟩ := idx0_10 t
  show V m c main_arg6 (((cfg0.win 10).blk t).view.emb (ix2 k q)) = _
  rw [V_main_arg6]
  refine congrArg (m ((c : Thread nD τ).loc main_arg6)) (funext fun a => Fin.ext ?_)
  match a with
  | ⟨0, _⟩ => show win0_10.index t (0 : Fin 2) * 2048 + 1 * k.val = k.val; omega
  | ⟨1, _⟩ => show win0_10.index t (1 : Fin 2) * 256 + 1 * q.val = 256 * t.val + q.val; omega

theorem blk11_at (c : Dev nD) (t : Fin cfg0.N) (k : Fin 2048) (q : Fin 256) :
    (iblk m c 11 t : Vec Ideal S2048x256 .f32) (ix2 k q)
      = m ((c : Thread nD τ).loc main_arg7) (ix2 k (⟨256 * t.val + q.val, by have := point_lt t; omega⟩ : Fin 2048)) := by
  obtain ⟨e0, e1⟩ := idx0_11 t
  show V m c main_arg7 (((cfg0.win 11).blk t).view.emb (ix2 k q)) = _
  rw [V_main_arg7]
  refine congrArg (m ((c : Thread nD τ).loc main_arg7)) (funext fun a => Fin.ext ?_)
  match a with
  | ⟨0, _⟩ => show win0_11.index t (0 : Fin 2) * 2048 + 1 * k.val = k.val; omega
  | ⟨1, _⟩ => show win0_11.index t (1 : Fin 2) * 256 + 1 * q.val = 256 * t.val + q.val; omega

theorem blk12_at (c : Dev nD) (t : Fin cfg0.N) (q : Fin 256) :
    (iblk m c 12 t : Vec Ideal S1x256 .f32) (ix2 (0 : Fin 1) q)
      = m ((c : Thread nD τ).loc main_arg8) (ix1 (⟨256 * t.val + q.val, by have := point_lt t; omega⟩ : Fin 6144)) := by
  obtain ⟨e0, e1⟩ := idx0_12 t
  show V m c main_v0 (((cfg0.win 12).blk t).view.emb (ix2 (0 : Fin 1) q)) = _
  have hemb : ((cfg0.win 12).blk t).view.emb (ix2 (0 : Fin 1) q)
      = ix2 (0 : Fin 1) (⟨256 * t.val + q.val, by have := point_lt t; omega⟩ : Fin 6144) := funext fun a => Fin.ext (by
    match a with
    | ⟨0, _⟩ => show win0_12.index t (0 : Fin 2) * 1 + 1 * 0 = 0; omega
    | ⟨1, _⟩ => show win0_12.index t (1 : Fin 2) * 256 + 1 * q.val = 256 * t.val + q.val; omega)
  rw [hemb, V_main_v0]
  exact shapeCast_a_1a_apply _ shapeCasts_S6144_S1x6144 0 _

theorem blk13_at (c : Dev nD) (t : Fin cfg0.N) (q : Fin 256) :
    (iblk m c 13 t : Vec Ideal S1x256 .f32) (ix2 (0 : Fin 1) q)
      = m ((c : Thread nD τ).loc main_arg8) (ix1 (⟨2048 + (256 * t.val + q.val), by have := point_lt t; omega⟩ : Fin 6144)) := by
  obtain ⟨e0, e1⟩ := idx0_13 t
  show V m c main_v0 (((cfg0.win 13).blk t).view.emb (ix2 (0 : Fin 1) q)) = _
  have hemb : ((cfg0.win 13).blk t).view.emb (ix2 (0 : Fin 1) q)
      = ix2 (0 : Fin 1) (⟨2048 + (256 * t.val + q.val), by have := point_lt t; omega⟩ : Fin 6144) := funext fun a => Fin.ext (by
    match a with
    | ⟨0, _⟩ => show win0_13.index t (0 : Fin 2) * 1 + 1 * 0 = 0; omega
    | ⟨1, _⟩ => show win0_13.index t (1 : Fin 2) * 256 + 1 * q.val = 2048 + (256 * t.val + q.val); omega)
  rw [hemb, V_main_v0]
  exact shapeCast_a_1a_apply _ shapeCasts_S6144_S1x6144 0 _

theorem blk14_at (c : Dev nD) (t : Fin cfg0.N) (q : Fin 256) :
    (iblk m c 14 t : Vec Ideal S1x256 .f32) (ix2 (0 : Fin 1) q)
      = m ((c : Thread nD τ).loc main_arg8) (ix1 (⟨4096 + (256 * t.val + q.val), by have := point_lt t; omega⟩ : Fin 6144)) := by
  obtain ⟨e0, e1⟩ := idx0_14 t
  show V m c main_v0 (((cfg0.win 14).blk t).view.emb (ix2 (0 : Fin 1) q)) = _
  have hemb : ((cfg0.win 14).blk t).view.emb (ix2 (0 : Fin 1) q)
      = ix2 (0 : Fin 1) (⟨4096 + (256 * t.val + q.val), by have := point_lt t; omega⟩ : Fin 6144) := funext fun a => Fin.ext (by
    match a with
    | ⟨0, _⟩ => show win0_14.index t (0 : Fin 2) * 1 + 1 * 0 = 0; omega
    | ⟨1, _⟩ => show win0_14.index t (1 : Fin 2) * 256 + 1 * q.val = 4096 + (256 * t.val + q.val); omega)
  rw [hemb, V_main_v0]
  exact shapeCast_a_1a_apply _ shapeCasts_S6144_S1x6144 0 _

theorem blk15_at (c : Dev nD) (t : Fin cfg0.N) (q : Fin 256) :
    (iblk m c 15 t : Vec Ideal S1x256 .f32) (ix2 (0 : Fin 1) q)
      = m ((c : Thread nD τ).loc main_arg9) (ix1 (⟨256 * t.val + q.val, by have := point_lt t; omega⟩ : Fin 2048)) := by
  obtain ⟨e0, e1⟩ := idx0_15 t
  show V m c main_v1 (((cfg0.win 15).blk t).view.emb (ix2 (0 : Fin 1) q)) = _
  have hemb : ((cfg0.win 15).blk t).view.emb (ix2 (0 : Fin 1) q)
      = ix2 (0 : Fin 1) (⟨256 * t.val + q.val, by have := point_lt t; omega⟩ : Fin 2048) := funext fun a => Fin.ext (by
    match a with
    | ⟨0, _⟩ => show win0_15.index t (0 : Fin 2) * 1 + 1 * 0 = 0; omega
    | ⟨1, _⟩ => show win0_15.index t (1 : Fin 2) * 256 + 1 * q.val = 256 * t.val + q.val; omega)
  rw [hemb, V_main_v1]
  exact shapeCast_a_1a_apply _ shapeCasts_S2048_S1x2048 0 _

/-! ## What each point writes back, and the whole result arrays -/

theorem hz : (![0, 0] : Fin 2 → Nat) = fun _ => 0 := funext fun a => by fin_cases a <;> rfl

/-! ## The new hidden state (window 16) -/

/-- What point `t` writes back is columns 256 t … 256 t + 255 of the specification's row. -/
theorem flushed16_eq (c : Dev nD) (t : Fin cfg0.N) :
    (dats m 0 c).flushed 16 t = ((cfg0.win 16).blk t).view.read (Elt Ideal) (Cert.Spec.outH (args m c)) := by
  show (cfg0.win 16).cut (grid0.coords t) ((dats m 0 c).after 16 t) = _
  rw [after0_16]
  unfold out0_16
  rw [View.canon_unit_zero hz]
  simp only [View.ld_unit_zero (S := S1x2048) hz, View.ld_unit_zero (S := S64x2048) hz, View.ld_unit_zero (S := S64x256) hz,
    View.ld_unit_zero (S := S2048x256) hz, View.ld_unit_zero (S := S1x256) hz]
  obtain ⟨e0, e1⟩ := idx0_16 t
  have h8 := point_lt t
  funext j
  obtain ⟨u, q, rfl⟩ : ∃ (u : Fin 1) (q : Fin 256), j = ix2 u q := ⟨j 0, j 1, eq_ix2 j⟩
  obtain rfl : u = 0 := Subsingleton.elim _ _
  have hemb : ((cfg0.win 16).blk t).view.emb (ix2 (0 : Fin 1) q)
      = ix2 (0 : Fin 1) (⟨256 * t.val + q.val, by omega⟩ : Fin 2048) := funext fun a => Fin.ext (by
    match a with
    | ⟨0, _⟩ => show win0_16.index t (0 : Fin 2) * 1 + 1 * 0 = 0; omega
    | ⟨1, _⟩ => show win0_16.index t (1 : Fin 2) * 256 + 1 * q.val = 256 * t.val + q.val; omega)
  show _ = Cert.Spec.outH (args m c) (((cfg0.win 16).blk t).view.emb (ix2 (0 : Fin 1) q))
  rw [hemb]
  exact PayloadAt.h1_tile_at (args m c) (256 * t.val) (by omega)
      (iblk m c 0 t) (iblk m c 1 t) (iblk m c 2 t) (iblk m c 3 t)
      (iblk m c 7 t) (iblk m c 4 t) (iblk m c 8 t) (iblk m c 5 t) (iblk m c 9 t) (iblk m c 6 t) (iblk m c 10 t) (iblk m c 11 t)
      (iblk m c 12 t) (iblk m c 13 t) (iblk m c 14 t) (iblk m c 15 t)
      (blk0_at m c t) (blk1_at m c t) (blk2_at m c t) (blk3_at m c t)
      (blk7_at m c t) (blk8_at m c t) (blk9_at m c t) (blk4_at m c t) (blk5_at m c t) (blk6_at m c t)
      (blk12_at m c t) (blk13_at m c t) (blk14_at m c t) (blk10_at m c t) (blk11_at m c t) (blk15_at m c t) q

/-- An index of the row is in point `t`'s block iff each coordinate is in the block's range on its axis. -/
theorem mem_blk16 (t : Fin cfg0.N) (i : S1x2048.Idx) :
    i ∈ ((cfg0.win 16).blk t).view.set
      ↔ ∀ a : Fin 2, win0_16.index t a * S1x256.size a ≤ (i a).val ∧ (i a).val < win0_16.index t a * S1x256.size a + S1x256.size a := by
  show i ∈ ((View.whole main_v2_0).slice (win0_16.rect t)).set ↔ _
  rw [View.set_slice_whole, Rect.mem_set_unit]
  exact Iff.rfl

/-- Every column is in the block of the point its 256-wide tile belongs to. -/
theorem cover16 (i : S1x2048.Idx) :
    ∃ t : Fin cfg0.N, (cfg0.win 16).flush t = true ∧ i ∈ ((cfg0.win 16).blk t).view.set := by
  have hi0 : (i 0).val < 1 := (i 0).isLt
  have hi1 : (i 1).val < 2048 := (i 1).isLt
  let t : Fin cfg0.N := ⟨(i 1).val / 256, lt_of_lt_of_eq (by omega : (i 1).val / 256 < 8) N_0.symm⟩
  obtain ⟨e0, e1⟩ := idx0_16 t
  have ht : t.val = (i 1).val / 256 := rfl
  refine ⟨t, flush0_16 t, ?_⟩
  rw [mem_blk16]
  intro a
  match a with
  | ⟨0, _⟩ => show win0_16.index t (0 : Fin 2) * 1 ≤ (i 0).val ∧ (i 0).val < win0_16.index t (0 : Fin 2) * 1 + 1; omega
  | ⟨1, _⟩ => show win0_16.index t (1 : Fin 2) * 256 ≤ (i 1).val ∧ (i 1).val < win0_16.index t (1 : Fin 2) * 256 + 256; omega

/-- THE NEW HIDDEN STATE after the run is the specification's row of the argument arrays. -/
theorem final16 (c : Dev nD) : (dats m 0 c).arrAt 16 cfg0.N = Cert.Spec.outH (args m c) :=
  (dats m 0 c).arrAt_eq_of_cover 16 (Cert.Spec.outH (args m c)) (fun t _ => flushed16_eq m c t) (cover16)

/-! ## The new cell state (window 17) -/

/-- What point `t` writes back is columns 256 t … 256 t + 255 of the specification's row. -/
theorem flushed17_eq (c : Dev nD) (t : Fin cfg0.N) :
    (dats m 0 c).flushed 17 t = ((cfg0.win 17).blk t).view.read (Elt Ideal) (Cert.Spec.outC (args m c)) := by
  show (cfg0.win 17).cut (grid0.coords t) ((dats m 0 c).after 17 t) = _
  rw [after0_17]
  unfold out0_17
  rw [View.canon_unit_zero hz]
  simp only [View.ld_unit_zero (S := S1x2048) hz, View.ld_unit_zero (S := S64x2048) hz, View.ld_unit_zero (S := S64x256) hz,
    View.ld_unit_zero (S := S2048x256) hz, View.ld_unit_zero (S := S1x256) hz]
  obtain ⟨e0, e1⟩ := idx0_17 t
  have h8 := point_lt t
  funext j
  obtain ⟨u, q, rfl⟩ : ∃ (u : Fin 1) (q : Fin 256), j = ix2 u q := ⟨j 0, j 1, eq_ix2 j⟩
  obtain rfl : u = 0 := Subsingleton.elim _ _
  have hemb : ((cfg0.win 17).blk t).view.emb (ix2 (0 : Fin 1) q)
      = ix2 (0 : Fin 1) (⟨256 * t.val + q.val, by omega⟩ : Fin 2048) := funext fun a => Fin.ext (by
    match a with
    | ⟨0, _⟩ => show win0_17.index t (0 : Fin 2) * 1 + 1 * 0 = 0; omega
    | ⟨1, _⟩ => show win0_17.index t (1 : Fin 2) * 256 + 1 * q.val = 256 * t.val + q.val; omega)
  show _ = Cert.Spec.outC (args m c) (((cfg0.win 17).blk t).view.emb (ix2 (0 : Fin 1) q))
  rw [hemb]
  exact PayloadAt.c1_tile_at (args m c) (256 * t.val) (by omega)
      (iblk m c 0 t) (iblk m c 1 t) (iblk m c 2 t) (iblk m c 3 t)
      (iblk m c 7 t) (iblk m c 4 t) (iblk m c 8 t) (iblk m c 5 t) (iblk m c 9 t) (iblk m c 6 t) (iblk m c 10 t) (iblk m c 11 t)
      (iblk m c 12 t) (iblk m c 13 t) (iblk m c 14 t) (iblk m c 15 t)
      (blk0_at m c t) (blk1_at m c t) (blk2_at m c t) (blk3_at m c t)
      (blk7_at m c t) (blk8_at m c t) (blk9_at m c t) (blk4_at m c t) (blk5_at m c t) (blk6_at m c t)
      (blk12_at m c t) (blk13_at m c t) (blk14_at m c t) (blk10_at m c t) (blk11_at m c t) (blk15_at m c t) q

/-- An index of the row is in point `t`'s block iff each coordinate is in the block's range on its axis. -/
theorem mem_blk17 (t : Fin cfg0.N) (i : S1x2048.Idx) :
    i ∈ ((cfg0.win 17).blk t).view.set
      ↔ ∀ a : Fin 2, win0_17.index t a * S1x256.size a ≤ (i a).val ∧ (i a).val < win0_17.index t a * S1x256.size a + S1x256.size a := by
  show i ∈ ((View.whole main_v2_1).slice (win0_17.rect t)).set ↔ _
  rw [View.set_slice_whole, Rect.mem_set_unit]
  exact Iff.rfl

/-- Every column is in the block of the point its 256-wide tile belongs to. -/
theorem cover17 (i : S1x2048.Idx) :
    ∃ t : Fin cfg0.N, (cfg0.win 17).flush t = true ∧ i ∈ ((cfg0.win 17).blk t).view.set := by
  have hi0 : (i 0).val < 1 := (i 0).isLt
  have hi1 : (i 1).val < 2048 := (i 1).isLt
  let t : Fin cfg0.N := ⟨(i 1).val / 256, lt_of_lt_of_eq (by omega : (i 1).val / 256 < 8) N_0.symm⟩
  obtain ⟨e0, e1⟩ := idx0_17 t
  have ht : t.val = (i 1).val / 256 := rfl
  refine ⟨t, flush0_17 t, ?_⟩
  rw [mem_blk17]
  intro a
  match a with
  | ⟨0, _⟩ => show win0_17.index t (0 : Fin 2) * 1 ≤ (i 0).val ∧ (i 0).val < win0_17.index t (0 : Fin 2) * 1 + 1; omega
  | ⟨1, _⟩ => show win0_17.index t (1 : Fin 2) * 256 ≤ (i 1).val ∧ (i 1).val < win0_17.index t (1 : Fin 2) * 256 + 256; omega

/-- THE NEW CELL STATE after the run is the specification's row of the argument arrays. -/
theorem final17 (c : Dev nD) : (dats m 0 c).arrAt 17 cfg0.N = Cert.Spec.outC (args m c) :=
  (dats m 0 c).arrAt_eq_of_cover 17 (Cert.Spec.outC (args m c)) (fun t _ => flushed17_eq m c t) (cover17)

end Cert.KernelIdeal.Hand.ValueLeg

end
-- ==== Proof.RefValue.lean ====
/-
  The reference program computes the specification.

  Each stage of the reference is read at an index and identified with the matching quantity of the specification:
  the gate pre-activation (the reference adds the bias before the input product, the specification after: one use of
  commutativity and associativity of + on the extended reals), the three gates, the attention gate, the 65 logits and
  the 65 merged values (row 0 of a concatenation against rows 1..64), the normaliser, the new cell state, the new
  hidden state. The reference spells the logistic function as 1/(1 + exp(-x)) with the constant word of 1.0, which
  is the ideal instance's logistic function by definition once that word is read as the extended real 1.
-/
import proofs.«140369_j5574867550454_1_alg».proof.Defs
import proofs.«140369_j5574867550454_1_alg».proof.Proof.RefRead
import proofs.«140369_j5574867550454_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.RefSide

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The word 0x3F800000 is the extended real 1. -/
theorem ofBits_one_f32 : Ideal.ofBits .f32 0x3F800000#32 = (1 : EReal) := by
  simp [Ideal.ofBits, Ideal.ieee, -EReal.coe_mul]; norm_num

/-- The host's expansion 1/(1 + exp(-z)), with both ones the constant word of 1.0, is the logistic function. -/
theorem host_sigmoid (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.logistic z
  rw [ofBits_one_f32]
  rfl

section stages

variable (x0 : (⟨S1x2048, .f32⟩ : BufTy).Contents (Elt Ideal)) (x1 : (⟨S64x2048, .f32⟩ : BufTy).Contents (Elt Ideal))
  (x2 : (⟨S1x2048, .f32⟩ : BufTy).Contents (Elt Ideal)) (x4 x5 : (⟨S2048x6144, .f32⟩ : BufTy).Contents (Elt Ideal))
  (x6 x7 : (⟨S2048x2048, .f32⟩ : BufTy).Contents (Elt Ideal)) (x8 : (⟨S6144, .f32⟩ : BufTy).Contents (Elt Ideal))
  (x9 : (⟨S2048, .f32⟩ : BufTy).Contents (Elt Ideal))

/-- The specification's arguments, from the reference's argument arrays. -/
abbrev args : Cert.Spec.Args := ⟨x0, x1, x2, x4, x5, x6, x7, x8, x9⟩

/-- The gate pre-activation: ((h0·Whh + b) + x·Wih) at column j is the specification's (h0·Whh + x·Wih) + b. -/
theorem pre_at (j : Fin 6144) :
    val_main_v4 (F := Ideal) x0 x2 x4 x5 x8 (ix2 (0 : Fin 1) j) = Cert.Spec.pre (args x0 x1 x2 x4 x5 x6 x7 x8 x9) j := by
  have el0 : ∀ k : Fin 2048, lidx_main_v0 (ix2 (0 : Fin 1) j) k = ix2 (0 : Fin 1) k := fun k =>
    funext fun a => Fin.ext (by match a with | ⟨0, _⟩ => rfl | ⟨1, _⟩ => rfl)
  have er0 : ∀ k : Fin 2048, ridx_main_v0 (ix2 (0 : Fin 1) j) k = ix2 k j := fun k =>
    funext fun a => Fin.ext (by match a with | ⟨0, _⟩ => rfl | ⟨1, _⟩ => rfl)
  have el3 : ∀ k : Fin 2048, lidx_main_v3 (ix2 (0 : Fin 1) j) k = ix2 (0 : Fin 1) k := fun k =>
    funext fun a => Fin.ext (by match a with | ⟨0, _⟩ => rfl | ⟨1, _⟩ => rfl)
  have er3 : ∀ k : Fin 2048, ridx_main_v3 (ix2 (0 : Fin 1) j) k = ix2 k j := fun k =>
    funext fun a => Fin.ext (by match a with | ⟨0, _⟩ => rfl | ⟨1, _⟩ => rfl)
  have e1 : idx_main_v1 (ix2 (0 : Fin 1) j) = ix1 j :=
    funext fun a => Fin.ext (by match a with | ⟨0, _⟩ => rfl)
  rw [val_main_v4_apply, val_main_v2_apply, val_main_v0_apply, val_main_v1_apply, val_main_v3_apply, e1]
  simp only [el0, er0, el3, er3]
  exact add_right_comm _ _ _

/-- The input gate: the logistic function of columns 0..2047 of the pre-activation. -/
theorem gI_at (j : Fin 2048) :
    val_main_v11 (F := Ideal) x0 x2 x4 x5 x8 (ix2 (0 : Fin 1) j) = Cert.Spec.gI (args x0 x1 x2 x4 x5 x6 x7 x8 x9) j := by
  have e5 : idx_main_v5 (ix2 (0 : Fin 1) j) = ix2 (0 : Fin 1) (⟨j.val, by omega⟩ : Fin 6144) :=
    funext fun a => Fin.ext (by match a with | ⟨0, _⟩ => rfl | ⟨1, _⟩ => rfl)
  rw [val_main_v11_apply, val_main_v10_apply, val_main_cst_0_apply, val_main_v9_apply, val_main_v8_apply, val_main_cst_apply,
    val_main_v7_apply, val_main_v6_apply, val_main_v5_apply, e5, pre_at x0 x1 x2 x4 x5 x6 x7 x8 x9, host_sigmoid]
  rfl

/-- The output gate: the logistic function of columns 2048..4095 of the pre-activation. -/
theorem gO_at (j : Fin 2048) :
    val_main_v18 (F := Ideal) x0 x2 x4 x5 x8 (ix2 (0 : Fin 1) j) = Cert.Spec.gO (args x0 x1 x2 x4 x5 x6 x7 x8 x9) j := by
  have e12 : idx_main_v12 (ix2 (0 : Fin 1) j) = ix2 (0 : Fin 1) (⟨2048 + j.val, by omega⟩ : Fin 6144) :=
    funext fun a => Fin.ext (by match a with | ⟨0, _⟩ => rfl | ⟨1, _⟩ => rfl)
  rw [val_main_v18_apply, val_main_v17_apply, val_main_cst_2_apply, val_main_v16_apply, val_main_v15_apply, val_main_cst_1_apply,
    val_main_v14_apply, val_main_v13_apply, val_main_v12_apply, e12, pre_at x0 x1 x2 x4 x5 x6 x7 x8 x9, host_sigmoid]
  rfl

/-- The candidate: the hyperbolic tangent of columns 4096..6143 of the pre-activation. -/
theorem gG_at (j : Fin 2048) :
    val_main_v20 (F := Ideal) x0 x2 x4 x5 x8 (ix2 (0 : Fin 1) j) = Cert.Spec.gG (args x0 x1 x2 x4 x5 x6 x7 x8 x9) j := by
  have e19 : idx_main_v19 (ix2 (0 : Fin 1) j) = ix2 (0 : Fin 1) (⟨4096 + j.val, by omega⟩ : Fin 6144) :=
    funext fun a => Fin.ext (by match a with | ⟨0, _⟩ => rfl | ⟨1, _⟩ => rfl)
  rw [val_main_v20_apply, val_main_v19_apply, e19, pre_at x0 x1 x2 x4 x5 x6 x7 x8 x9]
  rfl

/-- The attention gate of skip cell r at column j. -/
theorem alpha_at (r : Fin 64) (j : Fin 2048) :
    val_main_v32 (F := Ideal) x0 x1 x6 x7 x9 (ix2 r j) = Cert.Spec.alpha (args x0 x1 x2 x4 x5 x6 x7 x8 x9) r j := by
  have e25 : idx_main_v25 (ix2 r j) = ix2 (0 : Fin 1) j :=
    funext fun a => Fin.ext (by match a with | ⟨0, _⟩ => rfl | ⟨1, _⟩ => rfl)
  have el21 : ∀ k : Fin 2048, lidx_main_v21 (ix2 (0 : Fin 1) j) k = ix2 (0 : Fin 1) k := fun k =>
    funext fun a => Fin.ext (by match a with | ⟨0, _⟩ => rfl | ⟨1, _⟩ => rfl)
  have er21 : ∀ k : Fin 2048, ridx_main_v21 (ix2 (0 : Fin 1) j) k = ix2 k j := fun k =>
    funext fun a => Fin.ext (by match a with | ⟨0, _⟩ => rfl | ⟨1, _⟩ => rfl)
  have e22 : idx_main_v22 (ix2 (0 : Fin 1) j) = ix1 j :=
    funext fun a => Fin.ext (by match a with | ⟨0, _⟩ => rfl)
  have el24 : ∀ k : Fin 2048, lidx_main_v24 (ix2 r j) k = ix2 r k := fun k =>
    funext fun a => Fin.ext (by match a with | ⟨0, _⟩ => rfl | ⟨1, _⟩ => rfl)
  have er24 : ∀ k : Fin 2048, ridx_main_v24 (ix2 r j) k = ix2 k j := fun k =>
    funext fun a => Fin.ext (by match a with | ⟨0, _⟩ => rfl | ⟨1, _⟩ => rfl)
  rw [val_main_v32_apply, val_main_v31_apply, val_main_cst_4_apply, val_main_v30_apply, val_main_v29_apply, val_main_cst_3_apply,
    val_main_v28_apply, val_main_v27_apply, val_main_v26_apply, val_main_v25_apply, e25, val_main_v23_apply, val_main_v21_apply,
    val_main_v22_apply, e22, val_main_v24_apply, host_sigmoid]
  simp only [el21, er21, el24, er24]
  rfl

/-- The 65 logits: row 0 of the concatenation is the input gate, row r+1 the attention gate of skip cell r. -/
theorem logit_at (r : Fin 65) (j : Fin 2048) :
    val_main_v33 (F := Ideal) x0 x1 x2 x4 x5 x6 x7 x8 x9 (ix2 r j) = Cert.Spec.logit (args x0 x1 x2 x4 x5 x6 x7 x8 x9) r j := by
  unfold val_main_v33 Cert.Spec.logit
  by_cases hr : r.val = 0
  · rw [if_pos hr]
    refine (concatenate_pair_apply_left (0 : Fin S65x2048.rank) _ _ concatenates_S1x2048_S64x2048_S65x2048_d0 (ix2 r j) rfl
      (ix2 (0 : Fin 1) j) ?_).trans (gI_at x0 x1 x2 x4 x5 x6 x7 x8 x9 j)
    intro b
    match b with
    | ⟨0, _⟩ => exact hr.symm
    | ⟨1, _⟩ => rfl
  · rw [if_neg hr]
    refine (concatenate_pair_apply_right (0 : Fin S65x2048.rank) _ _ concatenates_S1x2048_S64x2048_S65x2048_d0 (ix2 r j) rfl rfl
      (ix2 (⟨r.val - 1, by omega⟩ : Fin 64) j) ?_ ?_).trans (alpha_at x0 x1 x2 x4 x5 x6 x7 x8 x9 _ j)
    · intro b hb
      match b, hb with
      | ⟨0, _⟩, hb => exact absurd rfl hb
      | ⟨1, _⟩, _ => rfl
    · show (r.val - 1) + 1 = r.val
      omega

/-- The 65 merged values: row 0 of the concatenation is the candidate, row r+1 is skip cell r. -/
theorem cand_at (r : Fin 65) (j : Fin 2048) :
    val_main_v39 (F := Ideal) x0 x1 x2 x4 x5 x8 (ix2 r j) = Cert.Spec.cand (args x0 x1 x2 x4 x5 x6 x7 x8 x9) r j := by
  unfold val_main_v39 Cert.Spec.cand
  by_cases hr : r.val = 0
  · rw [if_pos hr]
    refine (concatenate_pair_apply_left (0 : Fin S65x2048.rank) _ _ concatenates_S1x2048_S64x2048_S65x2048_d0 (ix2 r j) rfl
      (ix2 (0 : Fin 1) j) ?_).trans (gG_at x0 x1 x2 x4 x5 x6 x7 x8 x9 j)
    intro b
    match b with
    | ⟨0, _⟩ => exact hr.symm
    | ⟨1, _⟩ => rfl
  · rw [if_neg hr]
    refine concatenate_pair_apply_right (0 : Fin S65x2048.rank) _ _ concatenates_S1x2048_S64x2048_S65x2048_d0 (ix2 r j) rfl rfl
      (ix2 (⟨r.val - 1, by omega⟩ : Fin 64) j) ?_ ?_
    · intro b hb
      match b, hb with
      | ⟨0, _⟩, hb => exact absurd rfl hb
      | ⟨1, _⟩, _ => rfl
    · show (r.val - 1) + 1 = r.val
      omega

/-- The normaliser: the sum over the 65 rows of the exponentials of the logits (the sum starts from the zero word). -/
theorem wsum_at (j : Fin 2048) :
    val_main_v35 (F := Ideal) x0 x1 x2 x4 x5 x6 x7 x8 x9 (ix1 j) = Cert.Spec.wsum (args x0 x1 x2 x4 x5 x6 x7 x8 x9) j := by
  have e : ∀ k : Fin 65, idx_main_v35 (ix1 j) k = ix2 k j := fun k =>
    funext fun a => Fin.ext (by match a with | ⟨0, _⟩ => rfl | ⟨1, _⟩ => rfl)
  rw [val_main_v35_apply, val_main_cst_5_apply]
  simp only [e, val_main_v34_apply, logit_at x0 x1 x2 x4 x5 x6 x7 x8 x9, Ideal.ofBits_def, Ideal.ofBits_zero_f32, zero_add, Ideal.hostUnary_exp_def]
  rfl

/-- The weight of row r: the exponential of its logit over the normaliser. -/
theorem weight_at (r : Fin 65) (j : Fin 2048) :
    val_main_v38 (F := Ideal) x0 x1 x2 x4 x5 x6 x7 x8 x9 (ix2 r j)
      = Ideal.div (Ideal.exp (Cert.Spec.logit (args x0 x1 x2 x4 x5 x6 x7 x8 x9) r j)) (Cert.Spec.wsum (args x0 x1 x2 x4 x5 x6 x7 x8 x9) j) := by
  have e37 : idx_main_v36 (idx_main_v37 (ix2 r j)) = ix1 j :=
    funext fun a => Fin.ext (by match a with | ⟨0, _⟩ => rfl)
  rw [val_main_v38_apply, val_main_v34_apply, logit_at x0 x1 x2 x4 x5 x6 x7 x8 x9, val_main_v37_apply, val_main_v36_apply, e37, wsum_at x0 x1 x2 x4 x5 x6 x7 x8 x9]
  rfl

/-- The new cell state: the sum over the 65 rows of value times weight (the sum starts from the zero word). -/
theorem c1_at (j : Fin 2048) :
    val_main_v41 (F := Ideal) x0 x1 x2 x4 x5 x6 x7 x8 x9 (ix1 j) = Cert.Spec.c1 (args x0 x1 x2 x4 x5 x6 x7 x8 x9) j := by
  have e : ∀ k : Fin 65, idx_main_v41 (ix1 j) k = ix2 k j := fun k =>
    funext fun a => Fin.ext (by match a with | ⟨0, _⟩ => rfl | ⟨1, _⟩ => rfl)
  rw [val_main_v41_apply, val_main_cst_6_apply]
  simp only [e, val_main_v40_apply, cand_at x0 x1 x2 x4 x5 x6 x7 x8 x9, weight_at x0 x1 x2 x4 x5 x6 x7 x8 x9, Ideal.ofBits_def, Ideal.ofBits_zero_f32, zero_add,
    Ideal.mulf_def]
  rfl

/-- The reference's cell-state result is the specification's. -/
theorem outC_eq : val_main_v42 (F := Ideal) x0 x1 x2 x4 x5 x6 x7 x8 x9 = Cert.Spec.outC (args x0 x1 x2 x4 x5 x6 x7 x8 x9) := by
  funext i
  obtain ⟨p, q, rfl⟩ : ∃ (p : Fin 1) (q : Fin 2048), i = ix2 p q := ⟨i 0, i 1, eq_ix2 i⟩
  have e42 : idx_main_v42 (ix2 p q) = ix1 q :=
    funext fun a => Fin.ext (by match a with | ⟨0, _⟩ => rfl)
  rw [val_main_v42_apply, e42, c1_at x0 x1 x2 x4 x5 x6 x7 x8 x9]
  rfl

/-- The reference's hidden-state result is the specification's. -/
theorem outH_eq : val_main_v44 (F := Ideal) x0 x1 x2 x4 x5 x6 x7 x8 x9 = Cert.Spec.outH (args x0 x1 x2 x4 x5 x6 x7 x8 x9) := by
  funext i
  obtain ⟨p, q, rfl⟩ : ∃ (p : Fin 1) (q : Fin 2048), i = ix2 p q := ⟨i 0, i 1, eq_ix2 i⟩
  obtain rfl : p = 0 := Subsingleton.elim p 0
  have e42 : idx_main_v42 (ix2 (0 : Fin 1) q) = ix1 q :=
    funext fun a => Fin.ext (by match a with | ⟨0, _⟩ => rfl)
  rw [val_main_v44_apply, gO_at x0 x1 x2 x4 x5 x6 x7 x8 x9, val_main_v43_apply, val_main_v42_apply, e42, c1_at x0 x1 x2 x4 x5 x6 x7 x8 x9]
  rfl

end stages

/-- The hidden-state result of the reference's run is the specification's hidden state of the argument arrays. -/
theorem ref_outH (m : (ℓ : Loc nD τ sig) → Buf (Elt Ideal) ℓ) (c : Dev nD) :
    Cert.ReferenceIdeal.ValueP.res_main_v44 (F := Ideal) m c
      = Cert.Spec.outH ⟨m ((c.tc : Thread nD τ).loc main_arg0), m ((c.tc : Thread nD τ).loc main_arg1), m ((c.tc : Thread nD τ).loc main_arg2), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩ :=
  (val_main_v44_eq (F := Ideal) m c).trans (outH_eq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))

/-- The cell-state result of the reference's run, as a stage of the argument arrays, is the specification's cell state. -/
theorem ref_outC_val (m : (ℓ : Loc nD τ sig) → Buf (Elt Ideal) ℓ) (c : Dev nD) :
    val_main_v42 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      = Cert.Spec.outC ⟨m ((c.tc : Thread nD τ).loc main_arg0), m ((c.tc : Thread nD τ).loc main_arg1), m ((c.tc : Thread nD τ).loc main_arg2), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩ :=
  outC_eq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The cell-state result of the reference's run, as the run states it, is the specification's cell state. -/
theorem ref_outC (m : (ℓ : Loc nD τ sig) → Buf (Elt Ideal) ℓ) (c : Dev nD) :
    broadcastInDim S1x2048 ![1] bcast_S2048_S1x2048_1 (Host.reduceAdd (F := Ideal) (mulf (concatenate S65x2048 0 [⟨S1x2048, (Host.tanh (extractStridedSlice S1x2048 ![0, 4096] (addf (addf (Host.dotGeneral (F := Ideal) (φ₁ := .f32) (φ₂ := .f32) dot_S1x2048_S2048x6144_S1x6144_1_0_0_1_n_n none (m ((c.tc : Thread nD τ).loc main_arg2)) (m ((c.tc : Thread nD τ).loc main_arg5))) (broadcastInDim S1x6144 ![1] bcast_S6144_S1x6144_1 (m ((c.tc : Thread nD τ).loc main_arg8)))) (Host.dotGeneral (F := Ideal) (φ₁ := .f32) (φ₂ := .f32) dot_S1x2048_S2048x6144_S1x6144_1_0_0_1_n_n none (m ((c.tc : Thread nD τ).loc main_arg0)) (m ((c.tc : Thread nD τ).loc main_arg4)))) slices_S1x6144_S1x2048_0_4096))⟩, ⟨S64x2048, (m ((c.tc : Thread nD τ).loc main_arg1))⟩] concatenates_S1x2048_S64x2048_S65x2048_d0) (Host.divf (F := Ideal) (Host.exp (concatenate S65x2048 0 [⟨S1x2048, (Host.divf (F := Ideal) (broadcastInDim S1x2048 ![] bcast_S_S1x2048 (constant (F := Ideal) S_ .f32 0x3F800000#32)) (addf (broadcastInDim S1x2048 ![] bcast_S_S1x2048 (constant (F := Ideal) S_ .f32 0x3F800000#32)) (Host.exp (Host.negf (extractStridedSlice S1x2048 ![0, 0] (addf (addf (Host.dotGeneral (F := Ideal) (φ₁ := .f32) (φ₂ := .f32) dot_S1x2048_S2048x6144_S1x6144_1_0_0_1_n_n none (m ((c.tc : Thread nD τ).loc main_arg2)) (m ((c.tc : Thread nD τ).loc main_arg5))) (broadcastInDim S1x6144 ![1] bcast_S6144_S1x6144_1 (m ((c.tc : Thread nD τ).loc main_arg8)))) (Host.dotGeneral (F := Ideal) (φ₁ := .f32) (φ₂ := .f32) dot_S1x2048_S2048x6144_S1x6144_1_0_0_1_n_n none (m ((c.tc : Thread nD τ).loc main_arg0)) (m ((c.tc : Thread nD τ).loc main_arg4)))) slices_S1x6144_S1x2048_0_0)))))⟩, ⟨S64x2048, (Host.divf (F := Ideal) (broadcastInDim S64x2048 ![] bcast_S_S64x2048 (constant (F := Ideal) S_ .f32 0x3F800000#32)) (addf (broadcastInDim S64x2048 ![] bcast_S_S64x2048 (constant (F := Ideal) S_ .f32 0x3F800000#32)) (Host.exp (Host.negf (addf (broadcastInDim S64x2048 ![0, 1] bcast_S1x2048_S64x2048_0_1 (addf (Host.dotGeneral (F := Ideal) (φ₁ := .f32) (φ₂ := .f32) dot_S1x2048_S2048x2048_S1x2048_1_0_0_1_n_n none (m ((c.tc : Thread nD τ).loc main_arg0)) (m ((c.tc : Thread nD τ).loc main_arg6))) (broadcastInDim S1x2048 ![1] bcast_S2048_S1x2048_1 (m ((c.tc : Thread nD τ).loc main_arg9))))) (Host.dotGeneral (F := Ideal) (φ₁ := .f32) (φ₂ := .f32) dot_S64x2048_S2048x2048_S64x2048_1_0_0_1_n_n none (m ((c.tc : Thread nD τ).loc main_arg1)) (m ((c.tc : Thread nD τ).loc main_arg7))))))))⟩] concatenates_S1x2048_S64x2048_S65x2048_d0)) (broadcastInDim S65x2048 ![0, 1] bcast_S1x2048_S65x2048_0_1 (broadcastInDim S1x2048 ![1] bcast_S2048_S1x2048_1 (Host.reduceAdd (F := Ideal) (Host.exp (concatenate S65x2048 0 [⟨S1x2048, (Host.divf (F := Ideal) (broadcastInDim S1x2048 ![] bcast_S_S1x2048 (constant (F := Ideal) S_ .f32 0x3F800000#32)) (addf (broadcastInDim S1x2048 ![] bcast_S_S1x2048 (constant (F := Ideal) S_ .f32 0x3F800000#32)) (Host.exp (Host.negf (extractStridedSlice S1x2048 ![0, 0] (addf (addf (Host.dotGeneral (F := Ideal) (φ₁ := .f32) (φ₂ := .f32) dot_S1x2048_S2048x6144_S1x6144_1_0_0_1_n_n none (m ((c.tc : Thread nD τ).loc main_arg2)) (m ((c.tc : Thread nD τ).loc main_arg5))) (broadcastInDim S1x6144 ![1] bcast_S6144_S1x6144_1 (m ((c.tc : Thread nD τ).loc main_arg8)))) (Host.dotGeneral (F := Ideal) (φ₁ := .f32) (φ₂ := .f32) dot_S1x2048_S2048x6144_S1x6144_1_0_0_1_n_n none (m ((c.tc : Thread nD τ).loc main_arg0)) (m ((c.tc : Thread nD τ).loc main_arg4)))) slices_S1x6144_S1x2048_0_0)))))⟩, ⟨S64x2048, (Host.divf (F := Ideal) (broadcastInDim S64x2048 ![] bcast_S_S64x2048 (constant (F := Ideal) S_ .f32 0x3F800000#32)) (addf (broadcastInDim S64x2048 ![] bcast_S_S64x2048 (constant (F := Ideal) S_ .f32 0x3F800000#32)) (Host.exp (Host.negf (addf (broadcastInDim S64x2048 ![0, 1] bcast_S1x2048_S64x2048_0_1 (addf (Host.dotGeneral (F := Ideal) (φ₁ := .f32) (φ₂ := .f32) dot_S1x2048_S2048x2048_S1x2048_1_0_0_1_n_n none (m ((c.tc : Thread nD τ).loc main_arg0)) (m ((c.tc : Thread nD τ).loc main_arg6))) (broadcastInDim S1x2048 ![1] bcast_S2048_S1x2048_1 (m ((c.tc : Thread nD τ).loc main_arg9))))) (Host.dotGeneral (F := Ideal) (φ₁ := .f32) (φ₂ := .f32) dot_S64x2048_S2048x2048_S64x2048_1_0_0_1_n_n none (m ((c.tc : Thread nD τ).loc main_arg1)) (m ((c.tc : Thread nD τ).loc main_arg7))))))))⟩] concatenates_S1x2048_S64x2048_S65x2048_d0)) (constant (F := Ideal) S_ .f32 0x00000000#32) reducesTo_S65x2048_S2048_d0 h_S_))))) (constant (F := Ideal) S_ .f32 0x00000000#32) reducesTo_S65x2048_S2048_d0 h_S_)
      = Cert.Spec.outC ⟨m ((c.tc : Thread nD τ).loc main_arg0), m ((c.tc : Thread nD τ).loc main_arg1), m ((c.tc : Thread nD τ).loc main_arg2), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩ :=
  (val_main_v42_eq (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).trans (ref_outC_val m c)

end Cert.RefSide

end
-- ==== Proof.lean ====
/-
  The certificate of a skip-connection LSTM cell: a Pallas kernel that tiles the hidden axis in eight blocks of 256
  columns, against its jnp reference.

  Per hidden column both programs compute the gate pre-activations (h0·Whh + x·Wih) + b — the reference as
  ((h0·Whh) + b) + x·Wih, equal by commutativity and associativity of + on the extended reals —, the input and
  output gates (logistic) and the candidate (tanh), the 64 attention gates σ((x·Aih + a) + c·Ahh), the exponential
  weights of the 65 logits normalised by their sum, the new cell state as the weighted sum of the candidate and the
  64 skip cells, and the new hidden state o · tanh(c1). The kernel's logistic operation and the reference's
  1/(1 + exp(-x)) are one function at the ideal instance. No law used needs finiteness, so the precondition is
  never opened.

  Frames: the kernel program's frame (at the word-level instance and at the ideal one) is proved against the launch
  theorem for a kernel whose input windows share arrays — the skip cells are read through two windows, each gate
  weight matrix and the bias row through three —, each shared array's full share dealt among its windows; the body
  is run symbolically once, at a generic grid point. The reference's frame is its run with the results dropped.
  Values: the kernel's two result arrays, block by block, are the specification's arrays (the eight blocks cover the
  2048 columns); the reference's two result terms are the specification's arrays, stage by stage.
-/
import proofs.«140369_j5574867550454_1_alg».proof.Defs
import proofs.«140369_j5574867550454_1_alg».proof.Proof.Gen.Kernel
import proofs.«140369_j5574867550454_1_alg».proof.Proof.Gen.KernelIdeal
import proofs.«140369_j5574867550454_1_alg».proof.Proof.Gen.ReferenceIdeal
import proofs.«140369_j5574867550454_1_alg».proof.Proof.Gen.Pre_finite_inputs
import proofs.«140369_j5574867550454_1_alg».proof.Proof.KRun
import proofs.«140369_j5574867550454_1_alg».proof.Proof.KIRun
import proofs.«140369_j5574867550454_1_alg».proof.Proof.KIValue
import proofs.«140369_j5574867550454_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- At the ideal instance both programs end with the specification's hidden-state and cell-state arrays of the
    (agreeing) argument arrays. -/
theorem algebraic : Cert.algebraic_KernelIdeal_ReferenceIdeal := by
  intro m ρ m' ρ' _ hagree
  refine ⟨fun c => Cert.Spec.outH (Cert.KernelIdeal.Hand.ValueLeg.args m c), fun c => Cert.Spec.outC (Cert.KernelIdeal.Hand.ValueLeg.args m c), ?_, ?_⟩
  · exact (θ_run Cert.KernelIdeal.defs _ _).mono (fun _ h c =>
      ⟨(h c).1.trans (Cert.KernelIdeal.Hand.ValueLeg.final16 m c), (h c).2.1.trans (Cert.KernelIdeal.Hand.ValueLeg.final17 m c), (h c).2.2⟩)
      (Cert.KernelIdeal.Hand.run_named m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · rw [Cert.RefSide.ref_outH m' c]
      unfold Cert.KernelIdeal.Hand.ValueLeg.args
      rw [(hagree c).1, (hagree c).2.1, (hagree c).2.2.1, (hagree c).2.2.2.2.1, (hagree c).2.2.2.2.2.1, (hagree c).2.2.2.2.2.2.1,
        (hagree c).2.2.2.2.2.2.2.1, (hagree c).2.2.2.2.2.2.2.2.1, (hagree c).2.2.2.2.2.2.2.2.2]
    · rw [Cert.RefSide.ref_outC m' c]
      unfold Cert.KernelIdeal.Hand.ValueLeg.args
      rw [(hagree c).1, (hagree c).2.1, (hagree c).2.2.1, (hagree c).2.2.2.2.1, (hagree c).2.2.2.2.2.1, (hagree c).2.2.2.2.2.2.1,
        (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
